-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16384x3 : Shape := ⟨3, ![1, 16384, 3]⟩
abbrev S_ : Shape := ⟨0, ![]⟩

class Facts : Prop where
  bcast_S_S1x16384x3 : S_.BroadcastsInDim S1x16384x3 (![] : Fin 0 → Fin S1x16384x3.rank)
  reducesTo_S1x16384x3_S_d0_1_2 : S1x16384x3.ReducesTo [0, 1, 2] S_
  h_S_ : 0 < S_.numel

variable [Facts]

def fn {F : FTy → Type} [FloatOps F] (main_arg0 : FVec F S1x16384x3 .f32) (main_arg1 : FVec F S1x16384x3 .f32) : IVec S_ 1 :=
  let main_v0 : FVec F S1x16384x3 .f32 := Host.absf main_arg0
  let main_cst : FVec F S_ .f32 := constant S_ .f32 0x7F800000#32
  let main_v1 : FVec F S1x16384x3 .f32 := broadcastInDim S1x16384x3 ![] bcast_S_S1x16384x3 main_cst
  let main_v2 : IVec S1x16384x3 1 := cmpf .olt main_v0 main_v1
  let main_c : IVec S_ 1 := constantI S_ 1 1#1
  let main_v3 : IVec S_ 1 := (fun x v => Host.reduce IntOp.andi x v reducesTo_S1x16384x3_S_d0_1_2 h_S_) main_v2 main_c
  let main_v4 : FVec F S1x16384x3 .f32 := Host.absf main_arg1
  let main_cst_0 : FVec F S_ .f32 := constant S_ .f32 0x7F800000#32
  let main_v5 : FVec F S1x16384x3 .f32 := broadcastInDim S1x16384x3 ![] bcast_S_S1x16384x3 main_cst_0
  let main_v6 : IVec S1x16384x3 1 := cmpf .olt main_v4 main_v5
  let main_c_1 : IVec S_ 1 := constantI S_ 1 1#1
  let main_v7 : IVec S_ 1 := (fun x v => Host.reduce IntOp.andi x v reducesTo_S1x16384x3_S_d0_1_2 h_S_) main_v6 main_c_1
  let main_v8 : IVec S_ 1 := andi main_v3 main_v7
  main_v8
-- ==== Kernel.lean ====
abbrev S1x16384x3 : Shape := ⟨3, ![1, 16384, 3]⟩
abbrev S16384x3 : Shape := ⟨2, ![16384, 3]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16x1x16384 : Shape := ⟨3, ![16, 1, 16384]⟩
abbrev S1024x3 : Shape := ⟨2, ![1024, 3]⟩
abbrev S1024x1 : Shape := ⟨2, ![1024, 1]⟩
abbrev S1x1024 : Shape := ⟨2, ![1, 1024]⟩
abbrev S1x1x1024 : Shape := ⟨3, ![1, 1, 1024]⟩
abbrev S1024x1024 : Shape := ⟨2, ![1024, 1024]⟩
abbrev S1024 : Shape := ⟨1, ![1024]⟩
abbrev S16x16384 : Shape := ⟨2, ![16, 16384]⟩

abbrev nBuf : Space → Nat
  | .hbm => 28
  | .vmem => 13
  | .smem => 0
  | _ => 0

abbrev bufTy : (tb : Table) → Fin (tcTables nBuf tb) → BufTy
  | .hbm, ⟨0, _⟩ => ⟨S1x16384x3, .f32⟩
  | .hbm, ⟨1, _⟩ => ⟨S1x16384x3, .f32⟩
  | .hbm, ⟨2, _⟩ => ⟨S16384x3, .f32⟩
  | .hbm, ⟨3, _⟩ => ⟨S16384x3, .f32⟩
  | .hbm, ⟨4, _⟩ => ⟨S16384x3, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S16384x3, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S1x16384, .f32⟩
  | .hbm, ⟨13, _⟩ => ⟨S16384x1, .f32⟩
  | .hbm, ⟨14, _⟩ => ⟨S16x1x16384, .f32⟩
  | .hbm, ⟨15, _⟩ => ⟨S16384, .f32⟩
  | .hbm, ⟨16, _⟩ => ⟨S16x16384, .f32⟩
  | .hbm, ⟨17, _⟩ => ⟨S_, .f32⟩
  | .hbm, ⟨18, _⟩ => ⟨S16384, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S1024x3, .f32⟩
  | .local _ .vmem, ⟨3, _⟩ => ⟨S1024x3, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .f32⟩
  | .local _ .vmem, ⟨9, _⟩ => ⟨S1024x1, .f32⟩
  | .local _ .vmem, ⟨10, _⟩ => ⟨S1x1x1024, .f32⟩
  | .local _ .vmem, ⟨11, _⟩ => ⟨S1x1x1024, .f32⟩
  | .local _ .vmem, ⟨12, _⟩ => ⟨S1024x1, .f32⟩
  | _, _ => ⟨S1x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def k0_cond3 (i : grid0.Coords) : BitVec 1 :=
  let arg1 : BitVec 32 := BitVec.ofNat 32 (i 1).val
  let c15_i32 : BitVec 32 := 15#32
  let v25 : BitVec 1 := Scalar.cmpi .eq arg1 c15_i32
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S1x16384x3_S16384x3 : S1x16384x3.ShapeCasts S16384x3
  reducesTo_S16384x3_S16384_d1 : S16384x3.ReducesTo [1] S16384
  h_S_ : 0 < S_.numel
  bcast_S16384_S16384x1_0 : S16384.BroadcastsInDim S16384x1 (![0] : Fin 1 → Fin S16384x1.rank)
  shapeCasts_S16384x1_S1x16384 : S16384x1.ShapeCasts S1x16384
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1024_S1024_2 : S1024x1024.Reduces [0] S1024
  shapeCasts_S1024_S1x1024 : S1024.ShapeCasts S1x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S16384x1_S16384 : S16384x1.ShapeCasts S16384
  shapeCasts_S16x1x16384_S16x16384 : S16x1x16384.ShapeCasts S16x16384
  reducesTo_S16x16384_S16384_d0 : S16x16384.ReducesTo [0] S16384
  reducesTo_S16384_S_d0 : S16384.ReducesTo [0] S_
  dot_S1024x3_S1024x3_S1024x1024_1_1_0_0_n_n_wf : DotDims.WF S1024x3 S1024x3 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S16384x3.size a
  hwx0_0 : ∀ i : grid0.Coords, EltTy.bits .f32 = 32 ∨ (Rect.block (s := S16384x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S16384x3.size a
  hwx0_1 : ∀ i : grid0.Coords, EltTy.bits .f32 = 32 ∨ (Rect.block (s := S16384x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S16384x1.size a
  hwx0_4 : ∀ i : grid0.Coords, EltTy.bits .f32 = 32 ∨ (Rect.block (s := S16384x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S16x1x16384.size a
  hwx0_5 : ∀ i : grid0.Coords, EltTy.bits .f32 = 32 ∨ (Rect.block (s := S16x1x16384) S1x1x1024.size (cc0_transform_5 i) (hinb0_5 i)).WholeWords (EltTy.packing .f32)

variable [Facts₀]

def dot_S1024x3_S1024x3_S1024x1024_1_1_0_0_n_n : DotDims S1024x3 S1024x3 S1024x1024 where
  lhsContracting := [1]
  rhsContracting := [1]
  lhsNonContracting := [0]
  rhsNonContracting := [0]
  lhsBatch := []
  rhsBatch := []
  wf := dot_S1024x3_S1024x3_S1024x1024_1_1_0_0_n_n_wf

abbrev win0_0 : Pipeline.Window sig grid0 :=
  Pipeline.Window.ofSpec (Memref.whole main_v0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_1) S1x1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond3 i == 1#1) | 5 => fun _ => false | ⟨_ + 6, h⟩ => absurd h (Nat.not_lt.2 (Nat.le_add_left _ _))

class Facts : Prop extends Facts₀ where

variable [Facts]
-- ==== ReferenceIdeal.lean ====
abbrev S1x16384x3 : Shape := ⟨3, ![1, 16384, 3]⟩
abbrev S16384x3 : Shape := ⟨2, ![16384, 3]⟩
abbrev S_ : Shape := ⟨0, ![]⟩
abbrev S16384 : Shape := ⟨1, ![16384]⟩
abbrev S16384x16384 : Shape := ⟨2, ![16384, 16384]⟩
abbrev S16384x1 : Shape := ⟨2, ![16384, 1]⟩
abbrev S1x16384 : Shape := ⟨2, ![1, 16384]⟩

abbrev nBuf : Space → Nat
  | .hbm => 36
  | .vmem => 0
  | .smem => 0
  | _ => 0

abbrev bufTy : (tb : Table) → Fin (tcTables nBuf tb) → BufTy
  | .hbm, ⟨0, _⟩ => ⟨S1x16384x3, .f32⟩
  | .hbm, ⟨1, _⟩ => ⟨S1x16384x3, .f32⟩
  | .hbm, ⟨2, _⟩ => ⟨S16384x3, .f32⟩
  | .hbm, ⟨3, _⟩ => ⟨S16384x3, .f32⟩
  | .hbm, ⟨4, _⟩ => ⟨S16384x3, .f32⟩
  | .hbm, ⟨5, _⟩ => ⟨S_, .f32⟩
  | .hbm, ⟨6, _⟩ => ⟨S16384, .f32⟩
  | .hbm, ⟨7, _⟩ => ⟨S16384x3, .f32⟩
  | .hbm, ⟨8, _⟩ => ⟨S_, .f32⟩
  | .hbm, ⟨9, _⟩ => ⟨S16384, .f32⟩
  | .hbm, ⟨10, _⟩ => ⟨S16384x16384, .f32⟩
  | .hbm, ⟨11, _⟩ => ⟨S16384x1, .f32⟩
  | .hbm, ⟨12, _⟩ => ⟨S1x16384, .f32⟩
  | .hbm, ⟨13, _⟩ => ⟨S16384x16384, .f32⟩
  | .hbm, ⟨14, _⟩ => ⟨S16384x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S_, .f32⟩
  | .hbm, ⟨21, _⟩ => ⟨S16384x16384, .f32⟩
  | .hbm, ⟨22, _⟩ => ⟨S16384x16384, .f32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S1x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  shapeCasts_S1x16384x3_S16384x3 : S1x16384x3.ShapeCasts S16384x3
  reducesTo_S16384x3_S16384_d1 : S16384x3.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  reducesTo_S16384x16384_S16384_d0 : S16384x16384.ReducesTo [0] S16384
  reducesTo_S16384_S_d0 : S16384.ReducesTo [0] S_
  dot_S16384x3_S16384x3_S16384x16384_1_1_0_0_n_n_wf : DotDims.WF S16384x3 S16384x3 S16384x16384 [1] [1] [0] [0] [] []

variable [Facts₀]

def dot_S16384x3_S16384x3_S16384x16384_1_1_0_0_n_n : DotDims S16384x3 S16384x3 S16384x16384 where
  lhsContracting := [1]
  rhsContracting := [1]
  lhsNonContracting := [0]
  rhsNonContracting := [0]
  lhsBatch := []
  rhsBatch := []
  wf := dot_S16384x3_S16384x3_S16384x16384_1_1_0_0_n_n_wf

class Facts : Prop extends Facts₀ where

variable [Facts]
-- ==== Proof.Kernel.Cases.lean ====
import proofs.«112530_j80676665688371_2_alg».proof.Proof.Gen.Kernel.Frame
import proofs.«112530_j80676665688371_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions of the body, over the grid

The grid is 16 × 16, point `t` at row of tiles `t / 16` and tile `t % 16` of that row.  The body resets its running
minimum at the first tile of a row, folds into it at every later tile, and writes the clamped minimum out at the last. -/

/-- The first tile of a row: the running minimum is set. -/
abbrev cond1 (i : grid0.Coords) : Prop :=
  (Scalar.cmpi .ne (Scalar.extui (Scalar.cmpi .eq (BitVec.ofNat 32 (i 1).val) 0#32)) 0#32) = 1#1
/-- A later tile: the running minimum is folded into. -/
abbrev cond2 (i : grid0.Coords) : Prop :=
  (Scalar.cmpi .ne (Scalar.extui (Scalar.cmpi .ne (BitVec.ofNat 32 (i 1).val) 0#32)) 0#32) = 1#1
/-- The last tile of a row: the clamped minimum is written out. -/
abbrev cond3 (i : grid0.Coords) : Prop := k0_cond3 i = 1#1

theorem hcond1 : ∀ t : Fin cfg0.N, cond1 (grid0.coords t) ↔ t.val % 16 = 0 :=
  (by decide +kernel : ∀ t : Fin grid0.N, cond1 (grid0.coords t) ↔ t.val % 16 = 0)
theorem hcond2 : ∀ t : Fin cfg0.N, cond2 (grid0.coords t) ↔ ¬ t.val % 16 = 0 :=
  (by decide +kernel : ∀ t : Fin grid0.N, cond2 (grid0.coords t) ↔ ¬ t.val % 16 = 0)
theorem hcond3 : ∀ t : Fin cfg0.N, cond3 (grid0.coords t) ↔ t.val % 16 = 15 :=
  (by decide +kernel : ∀ t : Fin grid0.N, cond3 (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live5 : ∀ t : Fin cfg0.N, cfg0.idle 5 (grid0.coords t) = false := by decide +kernel
/-- Away from the last tile of a row the first output's buffer is neither stored into nor written back. -/
theorem idle4 : ∀ t : Fin cfg0.N, ¬cond3 (grid0.coords t) → cfg0.idle 4 (grid0.coords t) = true := by decide +kernel
theorem noFlush4 : ∀ t : Fin cfg0.N, ¬cond3 (grid0.coords t) → (cfg0.win 4).flush t = false := by decide +kernel
theorem live4 : ∀ t : Fin cfg0.N, cond3 (grid0.coords t) → cfg0.idle 4 (grid0.coords t) = false := by decide +kernel

/-! ## The memrefs the body is called with -/

abbrev ms0 (t : Fin cfg0.N) : Memref sig .tc .vmem S1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1024 .f32 := win0_5.stage (cfg0.slots t 5)
abbrev hs5 (t : Fin cfg0.N) : (ms5 t).IsWhole := hstage0_5 ((cfg0.slots t 5).cast nbuf0_5)
/-- The running minimum's buffer: a whole scoped buffer of the kernel's own. -/
abbrev scM : Memref sig .tc .vmem S1024x1 .f32 := Memref.whole cc0_scratch0
/-- Views through which the outputs' and the scratch's contents are stated. -/
abbrev VO4 : View sig .tc .vmem S1024x1 .f32 := (Memref.whole cc0_stg4_0 : Memref sig .tc .vmem S1024x1 .f32).view
abbrev VO5 : View sig .tc .vmem S1x1x1024 .f32 := (Memref.whole cc0_stg5_0 : Memref sig .tc .vmem S1x1x1024 .f32).view
abbrev VS : View sig .tc .vmem S1024x1 .f32 := scM.view

/-- What the region lends the body besides the windows: the scratch at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.Kernel.RunA.lean ====
import proofs.«112530_j80676665688371_2_alg».proof.Proof.Kernel.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST TILE OF A ROW.  On whole memrefs — the four inputs at their contents, the first output's buffer at
    contents handed back untouched, the second output's and the scratch at anything — the body runs to a continuation
    holding the inputs as they were, the second output's buffer with the pieces `L5` written and the scratch with the
    pieces `LS` written; the pieces are the ones the run finds. -/
noncomputable def runA (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1x1024 .f32) (harg7 : arg7.IsWhole) (arg8 : Memref sig .tc .vmem S1024x1 .f32) (harg8 : arg8.IsWhole) (hc1 : cond1 i) (hc2 : ¬cond2 i) (hc3 : ¬cond3 i)
    (x0 : Vec F S1024x3 .f32) (x1 : Vec F S1024x3 .f32) (x2 : Vec F S1024x1 .f32) (x3 : Vec F S1x1024 .f32) :
    Σ' (L5 : List (View.Piece (Elt F) S1x1x1024 .f32)), { LS : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__fused_chamfer_kernel i arg2 harg2 arg3 harg3 arg4 harg4 arg5 harg5 arg6 harg6 arg7 harg7 arg8 harg8) K } := by
  refine ⟨?_, ?_, fun xi4 E K => ?run⟩
  case run =>
    simp only [cc0__fused_chamfer_kernel_eq_skeleton]; unfold cc0__fused_chamfer_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.Body

end
-- ==== Proof.Kernel.RunB.lean ====
import proofs.«112530_j80676665688371_2_alg».proof.Proof.Kernel.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A MIDDLE TILE OF A ROW.  The scratch comes in at the running minimum `xs` the tile before left; the first output's
    buffer is handed back untouched. -/
noncomputable def runB (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1x1024 .f32) (harg7 : arg7.IsWhole) (arg8 : Memref sig .tc .vmem S1024x1 .f32) (harg8 : arg8.IsWhole) (hc1 : ¬cond1 i) (hc2 : cond2 i) (hc3 : ¬cond3 i)
    (x0 : Vec F S1024x3 .f32) (x1 : Vec F S1024x3 .f32) (x2 : Vec F S1024x1 .f32) (x3 : Vec F S1x1024 .f32) (xs : Vec F S1024x1 .f32) :
    Σ' (L5 : List (View.Piece (Elt F) S1x1x1024 .f32)), { LS : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__fused_chamfer_kernel i arg2 harg2 arg3 harg3 arg4 harg4 arg5 harg5 arg6 harg6 arg7 harg7 arg8 harg8) K } := by
  refine ⟨?_, ?_, fun xi4 E K => ?run⟩
  case run =>
    simp only [cc0__fused_chamfer_kernel_eq_skeleton]; unfold cc0__fused_chamfer_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.Body

end
-- ==== Proof.Kernel.RunC.lean ====
import proofs.«112530_j80676665688371_2_alg».proof.Proof.Kernel.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE LAST TILE OF A ROW.  The scratch comes in at the running minimum `xs`; the first output's buffer, at anything,
    ends with the pieces `L4` written. -/
noncomputable def runC (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1x1024 .f32) (harg7 : arg7.IsWhole) (arg8 : Memref sig .tc .vmem S1024x1 .f32) (harg8 : arg8.IsWhole) (hc1 : ¬cond1 i) (hc2 : cond2 i) (hc3 : cond3 i)
    (x0 : Vec F S1024x3 .f32) (x1 : Vec F S1024x3 .f32) (x2 : Vec F S1024x1 .f32) (x3 : Vec F S1x1024 .f32) (xs : Vec F S1024x1 .f32) :
    Σ' (L4 : List (View.Piece (Elt F) S1024x1 .f32)) (L5 : List (View.Piece (Elt F) S1x1x1024 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__fused_chamfer_kernel i arg2 harg2 arg3 harg3 arg4 harg4 arg5 harg5 arg6 harg6 arg7 harg7 arg8 harg8) K } := by
  refine ⟨?_, ?_, ?_, fun E K => ?run⟩
  case run =>
    simp only [cc0__fused_chamfer_kernel_eq_skeleton]; unfold cc0__fused_chamfer_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg8.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS

end Cert.Kernel.Body

end
-- ==== Proof.Kernel.Data.lean ====
import proofs.«112530_j80676665688371_2_alg».proof.Proof.Kernel.RunA
import proofs.«112530_j80676665688371_2_alg».proof.Proof.Kernel.RunB
import proofs.«112530_j80676665688371_2_alg».proof.Proof.Kernel.RunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves

A point leaves three things: the first output's buffer (the clamped minimum of a row of tiles; stored only at the row's
last tile), the second output's buffer (the tile's clamped column minima) and the scratch (the running minimum).  Each
is the read-back of the pieces the run of that kind of point found. -/

/-- The run at point `t`, on the memrefs the pipeline passes there. -/
abbrev RA (c : Dev nD) (t : Fin cfg0.N) (hc1 : cond1 (grid0.coords t)) (hc2 : ¬cond2 (grid0.coords t)) (hc3 : ¬cond3 (grid0.coords t)) (x0 : Vec F S1024x3 .f32) (x1 : Vec F S1024x3 .f32) (x2 : Vec F S1024x1 .f32) (x3 : Vec F S1x1024 .f32) :=
  runA (F := F) c (grid0.coords t) (ms0 t) (hs0 t) (ms1 t) (hs1 t) (ms2 t) (hs2 t) (ms3 t) (hs3 t) (ms4 t) (hs4 t) (ms5 t) (hs5 t) scM (Memref.isWhole_whole _) hc1 hc2 hc3 x0 x1 x2 x3
abbrev RB (c : Dev nD) (t : Fin cfg0.N) (hc1 : ¬cond1 (grid0.coords t)) (hc2 : cond2 (grid0.coords t)) (hc3 : ¬cond3 (grid0.coords t)) (x0 : Vec F S1024x3 .f32) (x1 : Vec F S1024x3 .f32) (x2 : Vec F S1024x1 .f32) (x3 : Vec F S1x1024 .f32) (xs : Vec F S1024x1 .f32) :=
  runB (F := F) c (grid0.coords t) (ms0 t) (hs0 t) (ms1 t) (hs1 t) (ms2 t) (hs2 t) (ms3 t) (hs3 t) (ms4 t) (hs4 t) (ms5 t) (hs5 t) scM (Memref.isWhole_whole _) hc1 hc2 hc3 x0 x1 x2 x3 xs
abbrev RC (c : Dev nD) (t : Fin cfg0.N) (hc1 : ¬cond1 (grid0.coords t)) (hc2 : cond2 (grid0.coords t)) (hc3 : cond3 (grid0.coords t)) (x0 : Vec F S1024x3 .f32) (x1 : Vec F S1024x3 .f32) (x2 : Vec F S1024x1 .f32) (x3 : Vec F S1x1024 .f32) (xs : Vec F S1024x1 .f32) :=
  runC (F := F) c (grid0.coords t) (ms0 t) (hs0 t) (ms1 t) (hs1 t) (ms2 t) (hs2 t) (ms3 t) (hs3 t) (ms4 t) (hs4 t) (ms5 t) (hs5 t) scM (Memref.isWhole_whole _) hc1 hc2 hc3 x0 x1 x2 x3 xs

/-- The first output's buffer where nothing is stored into it: a placeholder nothing consults. -/
def junk4 : Vec F S1024x1 .f32 := VO4.read (Elt F) (VO4.writes (Elt F) VO4.junk [])

theorem cover5A (c : Dev nD) (t : Fin cfg0.N) (hc1 : cond1 (grid0.coords t)) (hc2 : ¬cond2 (grid0.coords t)) (hc3 : ¬cond3 (grid0.coords t)) (x0 : Vec F S1024x3 .f32) (x1 : Vec F S1024x3 .f32) (x2 : Vec F S1024x1 .f32) (x3 : Vec F S1x1024 .f32) (y : S1x1x1024.Idx) :
    ∃ pc ∈ (RA c t hc1 hc2 hc3 x0 x1 x2 x3).1, y ∈ pc.1.set :=
  View.cover_of_tiledL (RA c t hc1 hc2 hc3 x0 x1 x2 x3).1 S1x1x1024.size (by sl_kernel_rfl) y
theorem coverSA (c : Dev nD) (t : Fin cfg0.N) (hc1 : cond1 (grid0.coords t)) (hc2 : ¬cond2 (grid0.coords t)) (hc3 : ¬cond3 (grid0.coords t)) (x0 : Vec F S1024x3 .f32) (x1 : Vec F S1024x3 .f32) (x2 : Vec F S1024x1 .f32) (x3 : Vec F S1x1024 .f32) (y : S1024x1.Idx) :
    ∃ pc ∈ (RA c t hc1 hc2 hc3 x0 x1 x2 x3).2.1, y ∈ pc.1.set :=
  View.cover_of_tiledL (RA c t hc1 hc2 hc3 x0 x1 x2 x3).2.1 S1024x1.size (by sl_kernel_rfl) y
theorem cover5B (c : Dev nD) (t : Fin cfg0.N) (hc1 : ¬cond1 (grid0.coords t)) (hc2 : cond2 (grid0.coords t)) (hc3 : ¬cond3 (grid0.coords t)) (x0 : Vec F S1024x3 .f32) (x1 : Vec F S1024x3 .f32) (x2 : Vec F S1024x1 .f32) (x3 : Vec F S1x1024 .f32) (xs : Vec F S1024x1 .f32) (y : S1x1x1024.Idx) :
    ∃ pc ∈ (RB c t hc1 hc2 hc3 x0 x1 x2 x3 xs).1, y ∈ pc.1.set :=
  View.cover_of_tiledL (RB c t hc1 hc2 hc3 x0 x1 x2 x3 xs).1 S1x1x1024.size (by sl_kernel_rfl) y
theorem coverSB (c : Dev nD) (t : Fin cfg0.N) (hc1 : ¬cond1 (grid0.coords t)) (hc2 : cond2 (grid0.coords t)) (hc3 : ¬cond3 (grid0.coords t)) (x0 : Vec F S1024x3 .f32) (x1 : Vec F S1024x3 .f32) (x2 : Vec F S1024x1 .f32) (x3 : Vec F S1x1024 .f32) (xs : Vec F S1024x1 .f32) (y : S1024x1.Idx) :
    ∃ pc ∈ (RB c t hc1 hc2 hc3 x0 x1 x2 x3 xs).2.1, y ∈ pc.1.set :=
  View.cover_of_tiledL (RB c t hc1 hc2 hc3 x0 x1 x2 x3 xs).2.1 S1024x1.size (by sl_kernel_rfl) y
theorem cover4C (c : Dev nD) (t : Fin cfg0.N) (hc1 : ¬cond1 (grid0.coords t)) (hc2 : cond2 (grid0.coords t)) (hc3 : cond3 (grid0.coords t)) (x0 : Vec F S1024x3 .f32) (x1 : Vec F S1024x3 .f32) (x2 : Vec F S1024x1 .f32) (x3 : Vec F S1x1024 .f32) (xs : Vec F S1024x1 .f32) (y : S1024x1.Idx) :
    ∃ pc ∈ (RC c t hc1 hc2 hc3 x0 x1 x2 x3 xs).1, y ∈ pc.1.set :=
  View.cover_of_tiledL (RC c t hc1 hc2 hc3 x0 x1 x2 x3 xs).1 S1024x1.size (by sl_kernel_rfl) y
theorem cover5C (c : Dev nD) (t : Fin cfg0.N) (hc1 : ¬cond1 (grid0.coords t)) (hc2 : cond2 (grid0.coords t)) (hc3 : cond3 (grid0.coords t)) (x0 : Vec F S1024x3 .f32) (x1 : Vec F S1024x3 .f32) (x2 : Vec F S1024x1 .f32) (x3 : Vec F S1x1024 .f32) (xs : Vec F S1024x1 .f32) (y : S1x1x1024.Idx) :
    ∃ pc ∈ (RC c t hc1 hc2 hc3 x0 x1 x2 x3 xs).2.1, y ∈ pc.1.set :=
  View.cover_of_tiledL (RC c t hc1 hc2 hc3 x0 x1 x2 x3 xs).2.1 S1x1x1024.size (by sl_kernel_rfl) y
theorem coverSC (c : Dev nD) (t : Fin cfg0.N) (hc1 : ¬cond1 (grid0.coords t)) (hc2 : cond2 (grid0.coords t)) (hc3 : cond3 (grid0.coords t)) (x0 : Vec F S1024x3 .f32) (x1 : Vec F S1024x3 .f32) (x2 : Vec F S1024x1 .f32) (x3 : Vec F S1x1024 .f32) (xs : Vec F S1024x1 .f32) (y : S1024x1.Idx) :
    ∃ pc ∈ (RC c t hc1 hc2 hc3 x0 x1 x2 x3 xs).2.2.1, y ∈ pc.1.set :=
  View.cover_of_tiledL (RC c t hc1 hc2 hc3 x0 x1 x2 x3 xs).2.2.1 S1024x1.size (by sl_kernel_rfl) y

/-- What the first tile of a row leaves (first output, second output, scratch). -/
def stA (c : Dev nD) (t : Fin cfg0.N) (hc1 : cond1 (grid0.coords t)) (hc2 : ¬cond2 (grid0.coords t)) (hc3 : ¬cond3 (grid0.coords t)) :
    Vec F S1024x1 .f32 × Vec F S1x1x1024 .f32 × Vec F S1024x1 .f32 :=
  (junk4, VO5.read (Elt F) (VO5.writes (Elt F) VO5.junk (RA c t hc1 hc2 hc3 (iblk m c 0 t) (iblk m c 1 t) (iblk m c 2 t) (iblk m c 3 t)).1),
    VS.read (Elt F) (VS.writes (Elt F) VS.junk (RA c t hc1 hc2 hc3 (iblk m c 0 t) (iblk m c 1 t) (iblk m c 2 t) (iblk m c 3 t)).2.1))
/-- What a middle tile leaves, over the running minimum `xs` the tile before left. -/
def stB (c : Dev nD) (t : Fin cfg0.N) (hc1 : ¬cond1 (grid0.coords t)) (hc2 : cond2 (grid0.coords t)) (hc3 : ¬cond3 (grid0.coords t)) (xs : Vec F S1024x1 .f32) :
    Vec F S1024x1 .f32 × Vec F S1x1x1024 .f32 × Vec F S1024x1 .f32 :=
  (junk4, VO5.read (Elt F) (VO5.writes (Elt F) VO5.junk (RB c t hc1 hc2 hc3 (iblk m c 0 t) (iblk m c 1 t) (iblk m c 2 t) (iblk m c 3 t) xs).1),
    VS.read (Elt F) (VS.writes (Elt F) VS.junk (RB c t hc1 hc2 hc3 (iblk m c 0 t) (iblk m c 1 t) (iblk m c 2 t) (iblk m c 3 t) xs).2.1))
/-- What the last tile of a row leaves. -/
def stC (c : Dev nD) (t : Fin cfg0.N) (hc1 : ¬cond1 (grid0.coords t)) (hc2 : cond2 (grid0.coords t)) (hc3 : cond3 (grid0.coords t)) (xs : Vec F S1024x1 .f32) :
    Vec F S1024x1 .f32 × Vec F S1x1x1024 .f32 × Vec F S1024x1 .f32 :=
  (VO4.read (Elt F) (VO4.writes (Elt F) VO4.junk (RC c t hc1 hc2 hc3 (iblk m c 0 t) (iblk m c 1 t) (iblk m c 2 t) (iblk m c 3 t) xs).1),
    VO5.read (Elt F) (VO5.writes (Elt F) VO5.junk (RC c t hc1 hc2 hc3 (iblk m c 0 t) (iblk m c 1 t) (iblk m c 2 t) (iblk m c 3 t) xs).2.1),
    VS.read (Elt F) (VS.writes (Elt F) VS.junk (RC c t hc1 hc2 hc3 (iblk m c 0 t) (iblk m c 1 t) (iblk m c 2 t) (iblk m c 3 t) xs).2.2.1))

/-! ## Point by point -/

/-- What the two outputs' buffers and the scratch hold after the body at position `n`: by the position within its row
    of tiles, the scratch handed from each point to the next. -/
def outsAt (c : Dev nD) : (n : ℕ) → n < cfg0.N → Vec F S1024x1 .f32 × Vec F S1x1x1024 .f32 × Vec F S1024x1 .f32
  | 0, hn => stA m c ⟨0, hn⟩ ((hcond1 ⟨0, hn⟩).mpr (Nat.zero_mod _)) (fun h => (hcond2 ⟨0, hn⟩).mp h (Nat.zero_mod _))
      (fun h => absurd ((hcond3 ⟨0, hn⟩).mp h) (by show ¬ (0 % 16 = 15); decide))
  | n + 1, hn =>
    if h0 : (n + 1) % 16 = 0 then
      stA m c ⟨n + 1, hn⟩ ((hcond1 ⟨n + 1, hn⟩).mpr h0) (fun h => (hcond2 ⟨n + 1, hn⟩).mp h h0)
        (fun h => absurd ((hcond3 ⟨n + 1, hn⟩).mp h) (by show ¬ ((n + 1) % 16 = 15); omega))
    else if h15 : (n + 1) % 16 = 15 then
      stC m c ⟨n + 1, hn⟩ (fun h => h0 ((hcond1 ⟨n + 1, hn⟩).mp h)) ((hcond2 ⟨n + 1, hn⟩).mpr h0) ((hcond3 ⟨n + 1, hn⟩).mpr h15)
        (outsAt c n (Nat.lt_of_succ_lt hn)).2.2
    else
      stB m c ⟨n + 1, hn⟩ (fun h => h0 ((hcond1 ⟨n + 1, hn⟩).mp h)) ((hcond2 ⟨n + 1, hn⟩).mpr h0) (fun h => h15 ((hcond3 ⟨n + 1, hn⟩).mp h))
        (outsAt c n (Nat.lt_of_succ_lt hn)).2.2

theorem outsAt_A (c : Dev nD) (t : Fin cfg0.N) (h0 : t.val % 16 = 0) (h15 : ¬t.val % 16 = 15) :
    outsAt m c t.val t.isLt = stA m c t ((hcond1 t).mpr h0) (fun h => (hcond2 t).mp h h0) (fun h => h15 ((hcond3 t).mp h)) := by
  obtain ⟨n, hn⟩ := t
  cases n with
  | zero => exact rfl
  | succ n => exact (dif_pos h0).trans rfl

theorem outsAt_B (c : Dev nD) (t : Fin cfg0.N) (h0 : ¬t.val % 16 = 0) (h15 : ¬t.val % 16 = 15) :
    outsAt m c t.val t.isLt = stB m c t (fun h => h0 ((hcond1 t).mp h)) ((hcond2 t).mpr h0) (fun h => h15 ((hcond3 t).mp h))
      (outsAt m c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h15).trans rfl)

theorem outsAt_C (c : Dev nD) (t : Fin cfg0.N) (h0 : ¬t.val % 16 = 0) (h15 : t.val % 16 = 15) :
    outsAt m c t.val t.isLt = stC m c t (fun h => h0 ((hcond1 t).mp h)) ((hcond2 t).mpr h0) ((hcond3 t).mpr h15)
      (outsAt m c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h15).trans rfl)

/-- The region's invariant before position `n`: before the first point the scratch at anything; afterwards the scratch
    at what the point before left. -/
def PhiS (c : Dev nD) : (n : ℕ) → n ≤ cfg0.N → sProp 𝕄
  | 0, _ => Pipeline.ΦA spec0 c
  | n + 1, hn => iprop(iprop(owns (c : Thread nD τ) scM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2.2)) ∗ (∃ r, prngReg c r)) := by
  cases n with
  | zero => exact absurd rfl hz
  | succ n => rfl

/-! ## The pipeline's proof data -/

/-- The arrays as the region finds them; after the body each input's buffer at its block, the outputs' at `outsAt`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]
theorem after5 (c : Dev nD) (t : Fin cfg0.N) : (dats m 0 c).after 5 t = (outsAt m c t.val t.isLt).2.1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

end Cert.Kernel.Body

end
-- ==== Proof.Kernel.Obligation.lean ====
import proofs.«112530_j80676665688371_2_alg».proof.Proof.Kernel.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point.  The inputs' memrefs hold their blocks; the position within the row of tiles says which
    kind of point it is; the invariant hands the body the scratch at what the point before left (at anything at the
    very first point) and takes it back at this point's running minimum; the first output's buffer is handed back as
    found except at a row's last tile; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · have h15 : ¬t.val % 16 = 15 := by omega
    rw [show (dats m 0 c).leavesExact 0 t = owns (c : Thread nD τ) (ms0 t) fullShare ((dats m 0 c).after 0 t) from by
      unfold Dat.leavesExact; rw [live0 t], after0]
    rw [show (dats m 0 c).leavesExact 1 t = owns (c : Thread nD τ) (ms1 t) fullShare ((dats m 0 c).after 1 t) from by
      unfold Dat.leavesExact; rw [live1 t], after1]
    rw [show (dats m 0 c).leavesExact 2 t = owns (c : Thread nD τ) (ms2 t) fullShare ((dats m 0 c).after 2 t) from by
      unfold Dat.leavesExact; rw [live2 t], after2]
    rw [show (dats m 0 c).leavesExact 3 t = owns (c : Thread nD τ) (ms3 t) fullShare ((dats m 0 c).after 3 t) from by
      unfold Dat.leavesExact; rw [live3 t], after3]
    rw [show (dats m 0 c).leavesExact 5 t = owns (c : Thread nD τ) (ms5 t) fullShare ((dats m 0 c).after 5 t) from by
      unfold Dat.leavesExact; rw [live5 t], after5]
    rw [Dat.leavesExact_idle (dats m 0 c) 4 t (idle4 t (fun h => h15 ((hcond3 t).mp h))) (noFlush4 t (fun h => h15 ((hcond3 t).mp h)))]
    rw [outsAt_A m c t h0 h15]
    unfold stA; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩⟩
      iapply ((RA c t ((hcond1 t).mpr h0) (fun h => (hcond2 t).mp h h0) (fun h => h15 ((hcond3 t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (coverSA c t _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      unfold owns; iexists _; isplitr
      swap; · iexact H5
      ipureintro; exact View.read_writes_of_cover _ _ _ _ _ (cover5A c t _ _ _ _ _ _ _)
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((RA c t ((hcond1 t).mpr h0) (fun h => (hcond2 t).mp h h0) (fun h => h15 ((hcond3 t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (coverSA c t _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      unfold owns; iexists _; isplitr
      swap; · iexact H5
      ipureintro; exact View.read_writes_of_cover _ _ _ _ _ (cover5A c t _ _ _ _ _ _ _)
  · have hz : t.val ≠ 0 := fun h => h0 (by rw [h])
    by_cases h15 : t.val % 16 = 15
    · rw [show (dats m 0 c).leavesExact 4 t = owns (c : Thread nD τ) (ms4 t) fullShare ((dats m 0 c).after 4 t) from by
        unfold Dat.leavesExact; rw [live4 t ((hcond3 t).mpr h15)], after4]
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 5 t = owns (c : Thread nD τ) (ms5 t) fullShare ((dats m 0 c).after 5 t) from by
        unfold Dat.leavesExact; rw [live5 t], after5]
      rw [outsAt_C m c t h0 h15]
      unfold stC; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((RC c t (fun h => h0 ((hcond1 t).mp h)) ((hcond2 t).mpr h0) ((hcond3 t).mpr h15) (iblk m c 0 t) (iblk m c 1 t) (iblk m c 2 t) (iblk m c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, ⟨%e4, H4⟩, ⟨%e5, H5⟩, ⟨%es, HS⟩⟩
      isplitl [HS Hg]
      · isplitl [HS]
        · unfold owns; iexists _; isplitr
          swap; · iexact HS
          ipureintro; exact View.read_writes_of_cover _ _ _ _ _ (coverSC c t _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4C c t _ _ _ _ _ _ _ _)
      unfold owns; iexists _; isplitr
      swap; · iexact H5
      ipureintro; exact View.read_writes_of_cover _ _ _ _ _ (cover5C c t _ _ _ _ _ _ _ _)
    · rw [Dat.leavesExact_idle (dats m 0 c) 4 t (idle4 t (fun h => h15 ((hcond3 t).mp h))) (noFlush4 t (fun h => h15 ((hcond3 t).mp h)))]
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 5 t = owns (c : Thread nD τ) (ms5 t) fullShare ((dats m 0 c).after 5 t) from by
        unfold Dat.leavesExact; rw [live5 t], after5]
      rw [outsAt_B m c t h0 h15]
      unfold stB; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((RB c t (fun h => h0 ((hcond1 t).mp h)) ((hcond2 t).mpr h0) (fun h => h15 ((hcond3 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (coverSB c t _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      unfold owns; iexists _; isplitr
      swap; · iexact H5
      ipureintro; exact View.read_writes_of_cover _ _ _ _ _ (cover5B c t _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of @main terminates, and every final state has every array of the pipeline at what
    the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KernelIdeal.Cases.lean ====
import proofs.«112530_j80676665688371_2_alg».proof.Proof.Gen.KernelIdeal.Frame
import proofs.«112530_j80676665688371_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions of the body, over the grid

The grid is 16 × 16, point `t` at row of tiles `t / 16` and tile `t % 16` of that row.  The body resets its running
minimum at the first tile of a row, folds into it at every later tile, and writes the clamped minimum out at the last. -/

/-- The first tile of a row: the running minimum is set. -/
abbrev cond1 (i : grid0.Coords) : Prop :=
  (Scalar.cmpi .ne (Scalar.extui (Scalar.cmpi .eq (BitVec.ofNat 32 (i 1).val) 0#32)) 0#32) = 1#1
/-- A later tile: the running minimum is folded into. -/
abbrev cond2 (i : grid0.Coords) : Prop :=
  (Scalar.cmpi .ne (Scalar.extui (Scalar.cmpi .ne (BitVec.ofNat 32 (i 1).val) 0#32)) 0#32) = 1#1
/-- The last tile of a row: the clamped minimum is written out. -/
abbrev cond3 (i : grid0.Coords) : Prop := k0_cond3 i = 1#1

theorem hcond1 : ∀ t : Fin cfg0.N, cond1 (grid0.coords t) ↔ t.val % 16 = 0 :=
  (by decide +kernel : ∀ t : Fin grid0.N, cond1 (grid0.coords t) ↔ t.val % 16 = 0)
theorem hcond2 : ∀ t : Fin cfg0.N, cond2 (grid0.coords t) ↔ ¬ t.val % 16 = 0 :=
  (by decide +kernel : ∀ t : Fin grid0.N, cond2 (grid0.coords t) ↔ ¬ t.val % 16 = 0)
theorem hcond3 : ∀ t : Fin cfg0.N, cond3 (grid0.coords t) ↔ t.val % 16 = 15 :=
  (by decide +kernel : ∀ t : Fin grid0.N, cond3 (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live5 : ∀ t : Fin cfg0.N, cfg0.idle 5 (grid0.coords t) = false := by decide +kernel
/-- Away from the last tile of a row the first output's buffer is neither stored into nor written back. -/
theorem idle4 : ∀ t : Fin cfg0.N, ¬cond3 (grid0.coords t) → cfg0.idle 4 (grid0.coords t) = true := by decide +kernel
theorem noFlush4 : ∀ t : Fin cfg0.N, ¬cond3 (grid0.coords t) → (cfg0.win 4).flush t = false := by decide +kernel
theorem live4 : ∀ t : Fin cfg0.N, cond3 (grid0.coords t) → cfg0.idle 4 (grid0.coords t) = false := by decide +kernel

/-! ## The memrefs the body is called with -/

abbrev ms0 (t : Fin cfg0.N) : Memref sig .tc .vmem S1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1024 .f32 := win0_5.stage (cfg0.slots t 5)
abbrev hs5 (t : Fin cfg0.N) : (ms5 t).IsWhole := hstage0_5 ((cfg0.slots t 5).cast nbuf0_5)
/-- The running minimum's buffer: a whole scoped buffer of the kernel's own. -/
abbrev scM : Memref sig .tc .vmem S1024x1 .f32 := Memref.whole cc0_scratch0
/-- Views through which the outputs' and the scratch's contents are stated. -/
abbrev VO4 : View sig .tc .vmem S1024x1 .f32 := (Memref.whole cc0_stg4_0 : Memref sig .tc .vmem S1024x1 .f32).view
abbrev VO5 : View sig .tc .vmem S1x1x1024 .f32 := (Memref.whole cc0_stg5_0 : Memref sig .tc .vmem S1x1x1024 .f32).view
abbrev VS : View sig .tc .vmem S1024x1 .f32 := scM.view

/-- What the region lends the body besides the windows: the scratch at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.KernelIdeal.RunA.lean ====
import proofs.«112530_j80676665688371_2_alg».proof.Proof.KernelIdeal.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST TILE OF A ROW.  On whole memrefs — the four inputs at their contents, the first output's buffer at
    contents handed back untouched, the second output's and the scratch at anything — the body runs to a continuation
    holding the inputs as they were, the second output's buffer with the pieces `L5` written and the scratch with the
    pieces `LS` written; the pieces are the ones the run finds. -/
noncomputable def runA (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1x1024 .f32) (harg7 : arg7.IsWhole) (arg8 : Memref sig .tc .vmem S1024x1 .f32) (harg8 : arg8.IsWhole) (hc1 : cond1 i) (hc2 : ¬cond2 i) (hc3 : ¬cond3 i)
    (x0 : Vec F S1024x3 .f32) (x1 : Vec F S1024x3 .f32) (x2 : Vec F S1024x1 .f32) (x3 : Vec F S1x1024 .f32) :
    Σ' (L5 : List (View.Piece (Elt F) S1x1x1024 .f32)), { LS : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__fused_chamfer_kernel i arg2 harg2 arg3 harg3 arg4 harg4 arg5 harg5 arg6 harg6 arg7 harg7 arg8 harg8) K } := by
  refine ⟨?_, ?_, fun xi4 E K => ?run⟩
  case run =>
    simp only [cc0__fused_chamfer_kernel_eq_skeleton]; unfold cc0__fused_chamfer_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Body

end
-- ==== Proof.KernelIdeal.RunB.lean ====
import proofs.«112530_j80676665688371_2_alg».proof.Proof.KernelIdeal.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A MIDDLE TILE OF A ROW.  The scratch comes in at the running minimum `xs` the tile before left; the first output's
    buffer is handed back untouched. -/
noncomputable def runB (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1x1024 .f32) (harg7 : arg7.IsWhole) (arg8 : Memref sig .tc .vmem S1024x1 .f32) (harg8 : arg8.IsWhole) (hc1 : ¬cond1 i) (hc2 : cond2 i) (hc3 : ¬cond3 i)
    (x0 : Vec F S1024x3 .f32) (x1 : Vec F S1024x3 .f32) (x2 : Vec F S1024x1 .f32) (x3 : Vec F S1x1024 .f32) (xs : Vec F S1024x1 .f32) :
    Σ' (L5 : List (View.Piece (Elt F) S1x1x1024 .f32)), { LS : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__fused_chamfer_kernel i arg2 harg2 arg3 harg3 arg4 harg4 arg5 harg5 arg6 harg6 arg7 harg7 arg8 harg8) K } := by
  refine ⟨?_, ?_, fun xi4 E K => ?run⟩
  case run =>
    simp only [cc0__fused_chamfer_kernel_eq_skeleton]; unfold cc0__fused_chamfer_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Body

end
-- ==== Proof.KernelIdeal.RunC.lean ====
import proofs.«112530_j80676665688371_2_alg».proof.Proof.KernelIdeal.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE LAST TILE OF A ROW.  The scratch comes in at the running minimum `xs`; the first output's buffer, at anything,
    ends with the pieces `L4` written. -/
noncomputable def runC (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1x1x1024 .f32) (harg7 : arg7.IsWhole) (arg8 : Memref sig .tc .vmem S1024x1 .f32) (harg8 : arg8.IsWhole) (hc1 : ¬cond1 i) (hc2 : cond2 i) (hc3 : cond3 i)
    (x0 : Vec F S1024x3 .f32) (x1 : Vec F S1024x3 .f32) (x2 : Vec F S1024x1 .f32) (x3 : Vec F S1x1024 .f32) (xs : Vec F S1024x1 .f32) :
    Σ' (L4 : List (View.Piece (Elt F) S1024x1 .f32)) (L5 : List (View.Piece (Elt F) S1x1x1024 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__fused_chamfer_kernel i arg2 harg2 arg3 harg3 arg4 harg4 arg5 harg5 arg6 harg6 arg7 harg7 arg8 harg8) K } := by
  refine ⟨?_, ?_, ?_, fun E K => ?run⟩
  case run =>
    simp only [cc0__fused_chamfer_kernel_eq_skeleton]; unfold cc0__fused_chamfer_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg8.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS

end Cert.KernelIdeal.Body

end
-- ==== Proof.KernelIdeal.Data.lean ====
import proofs.«112530_j80676665688371_2_alg».proof.Proof.KernelIdeal.RunA
import proofs.«112530_j80676665688371_2_alg».proof.Proof.KernelIdeal.RunB
import proofs.«112530_j80676665688371_2_alg».proof.Proof.KernelIdeal.RunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves

A point leaves three things: the first output's buffer (the clamped minimum of a row of tiles; stored only at the row's
last tile), the second output's buffer (the tile's clamped column minima) and the scratch (the running minimum).  Each
is the read-back of the pieces the run of that kind of point found. -/

/-- The run at point `t`, on the memrefs the pipeline passes there. -/
abbrev RA (c : Dev nD) (t : Fin cfg0.N) (hc1 : cond1 (grid0.coords t)) (hc2 : ¬cond2 (grid0.coords t)) (hc3 : ¬cond3 (grid0.coords t)) (x0 : Vec F S1024x3 .f32) (x1 : Vec F S1024x3 .f32) (x2 : Vec F S1024x1 .f32) (x3 : Vec F S1x1024 .f32) :=
  runA (F := F) c (grid0.coords t) (ms0 t) (hs0 t) (ms1 t) (hs1 t) (ms2 t) (hs2 t) (ms3 t) (hs3 t) (ms4 t) (hs4 t) (ms5 t) (hs5 t) scM (Memref.isWhole_whole _) hc1 hc2 hc3 x0 x1 x2 x3
abbrev RB (c : Dev nD) (t : Fin cfg0.N) (hc1 : ¬cond1 (grid0.coords t)) (hc2 : cond2 (grid0.coords t)) (hc3 : ¬cond3 (grid0.coords t)) (x0 : Vec F S1024x3 .f32) (x1 : Vec F S1024x3 .f32) (x2 : Vec F S1024x1 .f32) (x3 : Vec F S1x1024 .f32) (xs : Vec F S1024x1 .f32) :=
  runB (F := F) c (grid0.coords t) (ms0 t) (hs0 t) (ms1 t) (hs1 t) (ms2 t) (hs2 t) (ms3 t) (hs3 t) (ms4 t) (hs4 t) (ms5 t) (hs5 t) scM (Memref.isWhole_whole _) hc1 hc2 hc3 x0 x1 x2 x3 xs
abbrev RC (c : Dev nD) (t : Fin cfg0.N) (hc1 : ¬cond1 (grid0.coords t)) (hc2 : cond2 (grid0.coords t)) (hc3 : cond3 (grid0.coords t)) (x0 : Vec F S1024x3 .f32) (x1 : Vec F S1024x3 .f32) (x2 : Vec F S1024x1 .f32) (x3 : Vec F S1x1024 .f32) (xs : Vec F S1024x1 .f32) :=
  runC (F := F) c (grid0.coords t) (ms0 t) (hs0 t) (ms1 t) (hs1 t) (ms2 t) (hs2 t) (ms3 t) (hs3 t) (ms4 t) (hs4 t) (ms5 t) (hs5 t) scM (Memref.isWhole_whole _) hc1 hc2 hc3 x0 x1 x2 x3 xs

/-- The first output's buffer where nothing is stored into it: a placeholder nothing consults. -/
def junk4 : Vec F S1024x1 .f32 := VO4.read (Elt F) (VO4.writes (Elt F) VO4.junk [])

theorem cover5A (c : Dev nD) (t : Fin cfg0.N) (hc1 : cond1 (grid0.coords t)) (hc2 : ¬cond2 (grid0.coords t)) (hc3 : ¬cond3 (grid0.coords t)) (x0 : Vec F S1024x3 .f32) (x1 : Vec F S1024x3 .f32) (x2 : Vec F S1024x1 .f32) (x3 : Vec F S1x1024 .f32) (y : S1x1x1024.Idx) :
    ∃ pc ∈ (RA c t hc1 hc2 hc3 x0 x1 x2 x3).1, y ∈ pc.1.set :=
  View.cover_of_tiledL (RA c t hc1 hc2 hc3 x0 x1 x2 x3).1 S1x1x1024.size (by sl_kernel_rfl) y
theorem coverSA (c : Dev nD) (t : Fin cfg0.N) (hc1 : cond1 (grid0.coords t)) (hc2 : ¬cond2 (grid0.coords t)) (hc3 : ¬cond3 (grid0.coords t)) (x0 : Vec F S1024x3 .f32) (x1 : Vec F S1024x3 .f32) (x2 : Vec F S1024x1 .f32) (x3 : Vec F S1x1024 .f32) (y : S1024x1.Idx) :
    ∃ pc ∈ (RA c t hc1 hc2 hc3 x0 x1 x2 x3).2.1, y ∈ pc.1.set :=
  View.cover_of_tiledL (RA c t hc1 hc2 hc3 x0 x1 x2 x3).2.1 S1024x1.size (by sl_kernel_rfl) y
theorem cover5B (c : Dev nD) (t : Fin cfg0.N) (hc1 : ¬cond1 (grid0.coords t)) (hc2 : cond2 (grid0.coords t)) (hc3 : ¬cond3 (grid0.coords t)) (x0 : Vec F S1024x3 .f32) (x1 : Vec F S1024x3 .f32) (x2 : Vec F S1024x1 .f32) (x3 : Vec F S1x1024 .f32) (xs : Vec F S1024x1 .f32) (y : S1x1x1024.Idx) :
    ∃ pc ∈ (RB c t hc1 hc2 hc3 x0 x1 x2 x3 xs).1, y ∈ pc.1.set :=
  View.cover_of_tiledL (RB c t hc1 hc2 hc3 x0 x1 x2 x3 xs).1 S1x1x1024.size (by sl_kernel_rfl) y
theorem coverSB (c : Dev nD) (t : Fin cfg0.N) (hc1 : ¬cond1 (grid0.coords t)) (hc2 : cond2 (grid0.coords t)) (hc3 : ¬cond3 (grid0.coords t)) (x0 : Vec F S1024x3 .f32) (x1 : Vec F S1024x3 .f32) (x2 : Vec F S1024x1 .f32) (x3 : Vec F S1x1024 .f32) (xs : Vec F S1024x1 .f32) (y : S1024x1.Idx) :
    ∃ pc ∈ (RB c t hc1 hc2 hc3 x0 x1 x2 x3 xs).2.1, y ∈ pc.1.set :=
  View.cover_of_tiledL (RB c t hc1 hc2 hc3 x0 x1 x2 x3 xs).2.1 S1024x1.size (by sl_kernel_rfl) y
theorem cover4C (c : Dev nD) (t : Fin cfg0.N) (hc1 : ¬cond1 (grid0.coords t)) (hc2 : cond2 (grid0.coords t)) (hc3 : cond3 (grid0.coords t)) (x0 : Vec F S1024x3 .f32) (x1 : Vec F S1024x3 .f32) (x2 : Vec F S1024x1 .f32) (x3 : Vec F S1x1024 .f32) (xs : Vec F S1024x1 .f32) (y : S1024x1.Idx) :
    ∃ pc ∈ (RC c t hc1 hc2 hc3 x0 x1 x2 x3 xs).1, y ∈ pc.1.set :=
  View.cover_of_tiledL (RC c t hc1 hc2 hc3 x0 x1 x2 x3 xs).1 S1024x1.size (by sl_kernel_rfl) y
theorem cover5C (c : Dev nD) (t : Fin cfg0.N) (hc1 : ¬cond1 (grid0.coords t)) (hc2 : cond2 (grid0.coords t)) (hc3 : cond3 (grid0.coords t)) (x0 : Vec F S1024x3 .f32) (x1 : Vec F S1024x3 .f32) (x2 : Vec F S1024x1 .f32) (x3 : Vec F S1x1024 .f32) (xs : Vec F S1024x1 .f32) (y : S1x1x1024.Idx) :
    ∃ pc ∈ (RC c t hc1 hc2 hc3 x0 x1 x2 x3 xs).2.1, y ∈ pc.1.set :=
  View.cover_of_tiledL (RC c t hc1 hc2 hc3 x0 x1 x2 x3 xs).2.1 S1x1x1024.size (by sl_kernel_rfl) y
theorem coverSC (c : Dev nD) (t : Fin cfg0.N) (hc1 : ¬cond1 (grid0.coords t)) (hc2 : cond2 (grid0.coords t)) (hc3 : cond3 (grid0.coords t)) (x0 : Vec F S1024x3 .f32) (x1 : Vec F S1024x3 .f32) (x2 : Vec F S1024x1 .f32) (x3 : Vec F S1x1024 .f32) (xs : Vec F S1024x1 .f32) (y : S1024x1.Idx) :
    ∃ pc ∈ (RC c t hc1 hc2 hc3 x0 x1 x2 x3 xs).2.2.1, y ∈ pc.1.set :=
  View.cover_of_tiledL (RC c t hc1 hc2 hc3 x0 x1 x2 x3 xs).2.2.1 S1024x1.size (by sl_kernel_rfl) y

/-- What the first tile of a row leaves (first output, second output, scratch). -/
def stA (c : Dev nD) (t : Fin cfg0.N) (hc1 : cond1 (grid0.coords t)) (hc2 : ¬cond2 (grid0.coords t)) (hc3 : ¬cond3 (grid0.coords t)) :
    Vec F S1024x1 .f32 × Vec F S1x1x1024 .f32 × Vec F S1024x1 .f32 :=
  (junk4, VO5.read (Elt F) (VO5.writes (Elt F) VO5.junk (RA c t hc1 hc2 hc3 (iblk m c 0 t) (iblk m c 1 t) (iblk m c 2 t) (iblk m c 3 t)).1),
    VS.read (Elt F) (VS.writes (Elt F) VS.junk (RA c t hc1 hc2 hc3 (iblk m c 0 t) (iblk m c 1 t) (iblk m c 2 t) (iblk m c 3 t)).2.1))
/-- What a middle tile leaves, over the running minimum `xs` the tile before left. -/
def stB (c : Dev nD) (t : Fin cfg0.N) (hc1 : ¬cond1 (grid0.coords t)) (hc2 : cond2 (grid0.coords t)) (hc3 : ¬cond3 (grid0.coords t)) (xs : Vec F S1024x1 .f32) :
    Vec F S1024x1 .f32 × Vec F S1x1x1024 .f32 × Vec F S1024x1 .f32 :=
  (junk4, VO5.read (Elt F) (VO5.writes (Elt F) VO5.junk (RB c t hc1 hc2 hc3 (iblk m c 0 t) (iblk m c 1 t) (iblk m c 2 t) (iblk m c 3 t) xs).1),
    VS.read (Elt F) (VS.writes (Elt F) VS.junk (RB c t hc1 hc2 hc3 (iblk m c 0 t) (iblk m c 1 t) (iblk m c 2 t) (iblk m c 3 t) xs).2.1))
/-- What the last tile of a row leaves. -/
def stC (c : Dev nD) (t : Fin cfg0.N) (hc1 : ¬cond1 (grid0.coords t)) (hc2 : cond2 (grid0.coords t)) (hc3 : cond3 (grid0.coords t)) (xs : Vec F S1024x1 .f32) :
    Vec F S1024x1 .f32 × Vec F S1x1x1024 .f32 × Vec F S1024x1 .f32 :=
  (VO4.read (Elt F) (VO4.writes (Elt F) VO4.junk (RC c t hc1 hc2 hc3 (iblk m c 0 t) (iblk m c 1 t) (iblk m c 2 t) (iblk m c 3 t) xs).1),
    VO5.read (Elt F) (VO5.writes (Elt F) VO5.junk (RC c t hc1 hc2 hc3 (iblk m c 0 t) (iblk m c 1 t) (iblk m c 2 t) (iblk m c 3 t) xs).2.1),
    VS.read (Elt F) (VS.writes (Elt F) VS.junk (RC c t hc1 hc2 hc3 (iblk m c 0 t) (iblk m c 1 t) (iblk m c 2 t) (iblk m c 3 t) xs).2.2.1))

/-! ## Point by point -/

/-- What the two outputs' buffers and the scratch hold after the body at position `n`: by the position within its row
    of tiles, the scratch handed from each point to the next. -/
def outsAt (c : Dev nD) : (n : ℕ) → n < cfg0.N → Vec F S1024x1 .f32 × Vec F S1x1x1024 .f32 × Vec F S1024x1 .f32
  | 0, hn => stA m c ⟨0, hn⟩ ((hcond1 ⟨0, hn⟩).mpr (Nat.zero_mod _)) (fun h => (hcond2 ⟨0, hn⟩).mp h (Nat.zero_mod _))
      (fun h => absurd ((hcond3 ⟨0, hn⟩).mp h) (by show ¬ (0 % 16 = 15); decide))
  | n + 1, hn =>
    if h0 : (n + 1) % 16 = 0 then
      stA m c ⟨n + 1, hn⟩ ((hcond1 ⟨n + 1, hn⟩).mpr h0) (fun h => (hcond2 ⟨n + 1, hn⟩).mp h h0)
        (fun h => absurd ((hcond3 ⟨n + 1, hn⟩).mp h) (by show ¬ ((n + 1) % 16 = 15); omega))
    else if h15 : (n + 1) % 16 = 15 then
      stC m c ⟨n + 1, hn⟩ (fun h => h0 ((hcond1 ⟨n + 1, hn⟩).mp h)) ((hcond2 ⟨n + 1, hn⟩).mpr h0) ((hcond3 ⟨n + 1, hn⟩).mpr h15)
        (outsAt c n (Nat.lt_of_succ_lt hn)).2.2
    else
      stB m c ⟨n + 1, hn⟩ (fun h => h0 ((hcond1 ⟨n + 1, hn⟩).mp h)) ((hcond2 ⟨n + 1, hn⟩).mpr h0) (fun h => h15 ((hcond3 ⟨n + 1, hn⟩).mp h))
        (outsAt c n (Nat.lt_of_succ_lt hn)).2.2

theorem outsAt_A (c : Dev nD) (t : Fin cfg0.N) (h0 : t.val % 16 = 0) (h15 : ¬t.val % 16 = 15) :
    outsAt m c t.val t.isLt = stA m c t ((hcond1 t).mpr h0) (fun h => (hcond2 t).mp h h0) (fun h => h15 ((hcond3 t).mp h)) := by
  obtain ⟨n, hn⟩ := t
  cases n with
  | zero => exact rfl
  | succ n => exact (dif_pos h0).trans rfl

theorem outsAt_B (c : Dev nD) (t : Fin cfg0.N) (h0 : ¬t.val % 16 = 0) (h15 : ¬t.val % 16 = 15) :
    outsAt m c t.val t.isLt = stB m c t (fun h => h0 ((hcond1 t).mp h)) ((hcond2 t).mpr h0) (fun h => h15 ((hcond3 t).mp h))
      (outsAt m c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h15).trans rfl)

theorem outsAt_C (c : Dev nD) (t : Fin cfg0.N) (h0 : ¬t.val % 16 = 0) (h15 : t.val % 16 = 15) :
    outsAt m c t.val t.isLt = stC m c t (fun h => h0 ((hcond1 t).mp h)) ((hcond2 t).mpr h0) ((hcond3 t).mpr h15)
      (outsAt m c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h15).trans rfl)

/-- The region's invariant before position `n`: before the first point the scratch at anything; afterwards the scratch
    at what the point before left. -/
def PhiS (c : Dev nD) : (n : ℕ) → n ≤ cfg0.N → sProp 𝕄
  | 0, _ => Pipeline.ΦA spec0 c
  | n + 1, hn => iprop(iprop(owns (c : Thread nD τ) scM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2.2)) ∗ (∃ r, prngReg c r)) := by
  cases n with
  | zero => exact absurd rfl hz
  | succ n => rfl

/-! ## The pipeline's proof data -/

/-- The arrays as the region finds them; after the body each input's buffer at its block, the outputs' at `outsAt`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]
theorem after5 (c : Dev nD) (t : Fin cfg0.N) : (dats m 0 c).after 5 t = (outsAt m c t.val t.isLt).2.1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

end Cert.KernelIdeal.Body

end
-- ==== Proof.KernelIdeal.Pieces.lean ====
import proofs.«112530_j80676665688371_2_alg».proof.Proof.KernelIdeal.Data
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each kind of point leaves, as the body's arithmetic of the point's input blocks

Every store of the body covers its whole buffer, so what a buffer ends with is the last store's payload; a load after a
store reads that payload back. -/

theorem hz2 : (![0, 0] : Fin 2 → Nat) = fun _ => 0 := funext fun a => by fin_cases a <;> rfl
theorem hz3 : (![0, 0, 0] : Fin 3 → Nat) = fun _ => 0 := funext fun a => by fin_cases a <;> rfl

/-- The first tile of a row leaves the tile's row minima in the scratch. -/
theorem stA_scr (c : Dev nD) (t : Fin cfg0.N) (hc1 : cond1 (grid0.coords t)) (hc2 : ¬cond2 (grid0.coords t)) (hc3 : ¬cond3 (grid0.coords t)) : (stA m c t hc1 hc2 hc3).2.2 = k0_pay3 (iblk m c 0 t) (iblk m c 1 t) (iblk m c 2 t) (iblk m c 3 t) := by
  unfold stA
  dsimp only
  rw [View.read_writes_eq_canon _ _ _ (coverSA c t hc1 hc2 hc3 _ _ _ _)]
  unfold RA runA
  dsimp only
  try sl_unfold_words
  rw [View.canon_unit_zero hz2]
  simp only [View.readAt_eq_ld, (hs0 t).read_unread, (hs1 t).read_unread, (hs2 t).read_unread, (hs3 t).read_unread,
    (Memref.isWhole_whole cc0_scratch0).read_unread, View.ld_unit_zero (S := S1024x3) hz2, View.ld_unit_zero (S := S1024x1) hz2,
    View.ld_unit_zero (S := S1x1024) hz2]

/-- and the tile's clamped column minima in the second output's buffer. -/
theorem stA_out5 (c : Dev nD) (t : Fin cfg0.N) (hc1 : cond1 (grid0.coords t)) (hc2 : ¬cond2 (grid0.coords t)) (hc3 : ¬cond3 (grid0.coords t)) : (stA m c t hc1 hc2 hc3).2.1 = k0_pay6 (iblk m c 0 t) (iblk m c 1 t) (iblk m c 2 t) (iblk m c 3 t) := by
  unfold stA
  dsimp only
  rw [View.read_writes_eq_canon _ _ _ (cover5A c t hc1 hc2 hc3 _ _ _ _)]
  unfold RA runA
  dsimp only
  try sl_unfold_words
  rw [View.canon_unit_zero hz3]
  simp only [View.readAt_eq_ld, (hs0 t).read_unread, (hs1 t).read_unread, (hs2 t).read_unread, (hs3 t).read_unread,
    (Memref.isWhole_whole cc0_scratch0).read_unread, View.ld_unit_zero (S := S1024x3) hz2, View.ld_unit_zero (S := S1024x1) hz2,
    View.ld_unit_zero (S := S1x1024) hz2]

/-- A later tile leaves the minimum of the running minimum and the tile's row minima in the scratch. -/
theorem stB_scr (c : Dev nD) (t : Fin cfg0.N) (hc1 : ¬cond1 (grid0.coords t)) (hc2 : cond2 (grid0.coords t)) (hc3 : ¬cond3 (grid0.coords t)) (xs : Vec F S1024x1 .f32) : (stB m c t hc1 hc2 hc3 xs).2.2 = k0_pay4 (iblk m c 0 t) (iblk m c 1 t) (iblk m c 2 t) (iblk m c 3 t) xs := by
  unfold stB
  dsimp only
  rw [View.read_writes_eq_canon _ _ _ (coverSB c t hc1 hc2 hc3 _ _ _ _ _)]
  unfold RB runB
  dsimp only
  try sl_unfold_words
  rw [View.canon_unit_zero hz2]
  simp only [View.readAt_eq_ld, (hs0 t).read_unread, (hs1 t).read_unread, (hs2 t).read_unread, (hs3 t).read_unread,
    (Memref.isWhole_whole cc0_scratch0).read_unread, View.ld_unit_zero (S := S1024x3) hz2, View.ld_unit_zero (S := S1024x1) hz2,
    View.ld_unit_zero (S := S1x1024) hz2]

theorem stB_out5 (c : Dev nD) (t : Fin cfg0.N) (hc1 : ¬cond1 (grid0.coords t)) (hc2 : cond2 (grid0.coords t)) (hc3 : ¬cond3 (grid0.coords t)) (xs : Vec F S1024x1 .f32) : (stB m c t hc1 hc2 hc3 xs).2.1 = k0_pay6 (iblk m c 0 t) (iblk m c 1 t) (iblk m c 2 t) (iblk m c 3 t) := by
  unfold stB
  dsimp only
  rw [View.read_writes_eq_canon _ _ _ (cover5B c t hc1 hc2 hc3 _ _ _ _ _)]
  unfold RB runB
  dsimp only
  try sl_unfold_words
  rw [View.canon_unit_zero hz3]
  simp only [View.readAt_eq_ld, (hs0 t).read_unread, (hs1 t).read_unread, (hs2 t).read_unread, (hs3 t).read_unread,
    (Memref.isWhole_whole cc0_scratch0).read_unread, View.ld_unit_zero (S := S1024x3) hz2, View.ld_unit_zero (S := S1024x1) hz2,
    View.ld_unit_zero (S := S1x1024) hz2]

theorem stC_scr (c : Dev nD) (t : Fin cfg0.N) (hc1 : ¬cond1 (grid0.coords t)) (hc2 : cond2 (grid0.coords t)) (hc3 : cond3 (grid0.coords t)) (xs : Vec F S1024x1 .f32) : (stC m c t hc1 hc2 hc3 xs).2.2 = k0_pay4 (iblk m c 0 t) (iblk m c 1 t) (iblk m c 2 t) (iblk m c 3 t) xs := by
  unfold stC
  dsimp only
  rw [View.read_writes_eq_canon _ _ _ (coverSC c t hc1 hc2 hc3 _ _ _ _ _)]
  unfold RC runC
  dsimp only
  try sl_unfold_words
  rw [View.canon_unit_zero hz2]
  simp only [View.readAt_eq_ld, (hs0 t).read_unread, (hs1 t).read_unread, (hs2 t).read_unread, (hs3 t).read_unread,
    (Memref.isWhole_whole cc0_scratch0).read_unread, View.ld_unit_zero (S := S1024x3) hz2, View.ld_unit_zero (S := S1024x1) hz2,
    View.ld_unit_zero (S := S1x1024) hz2]

theorem stC_out5 (c : Dev nD) (t : Fin cfg0.N) (hc1 : ¬cond1 (grid0.coords t)) (hc2 : cond2 (grid0.coords t)) (hc3 : cond3 (grid0.coords t)) (xs : Vec F S1024x1 .f32) : (stC m c t hc1 hc2 hc3 xs).2.1 = k0_pay6 (iblk m c 0 t) (iblk m c 1 t) (iblk m c 2 t) (iblk m c 3 t) := by
  unfold stC
  dsimp only
  rw [View.read_writes_eq_canon _ _ _ (cover5C c t hc1 hc2 hc3 _ _ _ _ _)]
  unfold RC runC
  dsimp only
  try sl_unfold_words
  rw [View.canon_unit_zero hz3]
  simp only [View.readAt_eq_ld, (hs0 t).read_unread, (hs1 t).read_unread, (hs2 t).read_unread, (hs3 t).read_unread,
    (Memref.isWhole_whole cc0_scratch0).read_unread, View.ld_unit_zero (S := S1024x3) hz2, View.ld_unit_zero (S := S1024x1) hz2,
    View.ld_unit_zero (S := S1x1024) hz2]

/-- The last tile of a row leaves, in the first output's buffer, the clamp of the running minimum it has just stored. -/
theorem stC_out4 (c : Dev nD) (t : Fin cfg0.N) (hc1 : ¬cond1 (grid0.coords t)) (hc2 : cond2 (grid0.coords t)) (hc3 : cond3 (grid0.coords t)) (xs : Vec F S1024x1 .f32) : (stC m c t hc1 hc2 hc3 xs).1 = k0_pay5 (k0_pay4 (iblk m c 0 t) (iblk m c 1 t) (iblk m c 2 t) (iblk m c 3 t) xs) := by
  unfold stC
  dsimp only
  rw [View.read_writes_eq_canon _ _ _ (cover4C c t hc1 hc2 hc3 _ _ _ _ _)]
  unfold RC runC
  dsimp only
  sl_unfold_words
  rw [View.canon_unit_zero hz2, View.readCov_unit_zero (S := S1024x1) _ hz2]
  simp only [View.readAt_eq_ld, (hs0 t).read_unread, (hs1 t).read_unread, (hs2 t).read_unread, (hs3 t).read_unread,
    (Memref.isWhole_whole cc0_scratch0).read_unread, View.ld_unit_zero (S := S1024x3) hz2, View.ld_unit_zero (S := S1024x1) hz2,
    View.ld_unit_zero (S := S1x1024) hz2]

end Cert.KernelIdeal.Body

end
-- ==== Proof.KernelIdeal.Obligation.lean ====
import proofs.«112530_j80676665688371_2_alg».proof.Proof.KernelIdeal.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point.  The inputs' memrefs hold their blocks; the position within the row of tiles says which
    kind of point it is; the invariant hands the body the scratch at what the point before left (at anything at the
    very first point) and takes it back at this point's running minimum; the first output's buffer is handed back as
    found except at a row's last tile; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · have h15 : ¬t.val % 16 = 15 := by omega
    rw [show (dats m 0 c).leavesExact 0 t = owns (c : Thread nD τ) (ms0 t) fullShare ((dats m 0 c).after 0 t) from by
      unfold Dat.leavesExact; rw [live0 t], after0]
    rw [show (dats m 0 c).leavesExact 1 t = owns (c : Thread nD τ) (ms1 t) fullShare ((dats m 0 c).after 1 t) from by
      unfold Dat.leavesExact; rw [live1 t], after1]
    rw [show (dats m 0 c).leavesExact 2 t = owns (c : Thread nD τ) (ms2 t) fullShare ((dats m 0 c).after 2 t) from by
      unfold Dat.leavesExact; rw [live2 t], after2]
    rw [show (dats m 0 c).leavesExact 3 t = owns (c : Thread nD τ) (ms3 t) fullShare ((dats m 0 c).after 3 t) from by
      unfold Dat.leavesExact; rw [live3 t], after3]
    rw [show (dats m 0 c).leavesExact 5 t = owns (c : Thread nD τ) (ms5 t) fullShare ((dats m 0 c).after 5 t) from by
      unfold Dat.leavesExact; rw [live5 t], after5]
    rw [Dat.leavesExact_idle (dats m 0 c) 4 t (idle4 t (fun h => h15 ((hcond3 t).mp h))) (noFlush4 t (fun h => h15 ((hcond3 t).mp h)))]
    rw [outsAt_A m c t h0 h15]
    unfold stA; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩⟩
      iapply ((RA c t ((hcond1 t).mpr h0) (fun h => (hcond2 t).mp h h0) (fun h => h15 ((hcond3 t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (coverSA c t _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      unfold owns; iexists _; isplitr
      swap; · iexact H5
      ipureintro; exact View.read_writes_of_cover _ _ _ _ _ (cover5A c t _ _ _ _ _ _ _)
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((RA c t ((hcond1 t).mpr h0) (fun h => (hcond2 t).mp h h0) (fun h => h15 ((hcond3 t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (coverSA c t _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      unfold owns; iexists _; isplitr
      swap; · iexact H5
      ipureintro; exact View.read_writes_of_cover _ _ _ _ _ (cover5A c t _ _ _ _ _ _ _)
  · have hz : t.val ≠ 0 := fun h => h0 (by rw [h])
    by_cases h15 : t.val % 16 = 15
    · rw [show (dats m 0 c).leavesExact 4 t = owns (c : Thread nD τ) (ms4 t) fullShare ((dats m 0 c).after 4 t) from by
        unfold Dat.leavesExact; rw [live4 t ((hcond3 t).mpr h15)], after4]
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 5 t = owns (c : Thread nD τ) (ms5 t) fullShare ((dats m 0 c).after 5 t) from by
        unfold Dat.leavesExact; rw [live5 t], after5]
      rw [outsAt_C m c t h0 h15]
      unfold stC; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((RC c t (fun h => h0 ((hcond1 t).mp h)) ((hcond2 t).mpr h0) ((hcond3 t).mpr h15) (iblk m c 0 t) (iblk m c 1 t) (iblk m c 2 t) (iblk m c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, ⟨%e4, H4⟩, ⟨%e5, H5⟩, ⟨%es, HS⟩⟩
      isplitl [HS Hg]
      · isplitl [HS]
        · unfold owns; iexists _; isplitr
          swap; · iexact HS
          ipureintro; exact View.read_writes_of_cover _ _ _ _ _ (coverSC c t _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4C c t _ _ _ _ _ _ _ _)
      unfold owns; iexists _; isplitr
      swap; · iexact H5
      ipureintro; exact View.read_writes_of_cover _ _ _ _ _ (cover5C c t _ _ _ _ _ _ _ _)
    · rw [Dat.leavesExact_idle (dats m 0 c) 4 t (idle4 t (fun h => h15 ((hcond3 t).mp h))) (noFlush4 t (fun h => h15 ((hcond3 t).mp h)))]
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 5 t = owns (c : Thread nD τ) (ms5 t) fullShare ((dats m 0 c).after 5 t) from by
        unfold Dat.leavesExact; rw [live5 t], after5]
      rw [outsAt_B m c t h0 h15]
      unfold stB; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((RB c t (fun h => h0 ((hcond1 t).mp h)) ((hcond2 t).mpr h0) (fun h => h15 ((hcond3 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (coverSB c t _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      unfold owns; iexists _; isplitr
      swap; · iexact H5
      ipureintro; exact View.read_writes_of_cover _ _ _ _ _ (cover5B c t _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of @main terminates, and every final state has every array of the pipeline at what
    the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Chamfer.lean ====
/-
  The chamfer loss of two clouds of 16384 points in three coordinates, over the extended reals, in two
  arrangements.  The direct one: the clamped squared distance of every pair, `max (|p|² + |t|² - 2·(p·t)) 0`, its
  minimum along each row and along each column, and the two means added.  The tiled one: the 16384 × 16384 table cut
  into 16 × 16 tiles of 1024 × 1024, the factor 2 carried into the inner product's left factor, the minimum of a row
  taken tile by tile along a row of tiles (a running minimum, clamped once at the end), the minimum of a column taken
  inside each tile, clamped, and then across the 16 tiles of the column.
-/
import Idealize.ShloMosaic.PureOps
import Idealize.ShloMosaic.PureOps.Ideal
import Idealize.ShloMosaic.Lib.ValueIdx

noncomputable section

namespace Chamfer

open Idealize.ShloMosaic Idealize.ShloMosaic.ValueIdx

/-- A cloud: 16384 points, three extended-real coordinates each. -/
abbrev Cloud := Fin 16384 → Fin 3 → EReal

/-- The three float literals the programs share, read at the extended reals: 0, 2 and +∞. -/
abbrev zero : EReal := Ideal.ofBits .f32 0x00000000#32
abbrev two : EReal := Ideal.ofBits .f32 0x40000000#32
abbrev top : EReal := Ideal.ofBits .f32 0x7F800000#32

/-- The squared norm of point `n`: a sum started from the literal zero. -/
def sq (X : Cloud) (n : Fin 16384) : EReal := zero + ∑ k : Fin 3, X n k * X n k

/-- The inner product of point `n` of `P` and point `m` of `T`. -/
def cross (P T : Cloud) (n m : Fin 16384) : EReal := ∑ k : Fin 3, P n k * T m k

/-- The clamped squared distance of the pair. -/
def dist (P T : Cloud) (n m : Fin 16384) : EReal := max ((sq P n + sq T m) - two * cross P T n m) zero

/-- The nearest point of `T` to point `n` of `P`, and the nearest point of `P` to point `m` of `T`. -/
def near1 (P T : Cloud) (n : Fin 16384) : EReal := (Finset.univ : Finset (Fin 16384)).fold min top (fun m => dist P T n m)
def near2 (P T : Cloud) (m : Fin 16384) : EReal := (Finset.univ : Finset (Fin 16384)).fold min top (fun n => dist P T n m)

/-! ## The tiled arrangement -/

/-- Entry `r` of tile `i` along an axis of 16 tiles of 1024. -/
def at16 (i : Fin 16) (r : Fin 1024) : Fin 16384 := ⟨i.val * 1024 + r.val, by have := i.isLt; have := r.isLt; omega⟩

/-- The unclamped squared distance with the factor 2 inside the inner product's left factor. -/
def dK (P T : Cloud) (n m : Fin 16384) : EReal := (sq P n + sq T m) - ∑ k : Fin 3, (P n k * two) * T m k

/-- The minimum of row `r` of tile (i, j). -/
def rowmin (P T : Cloud) (i j : Fin 16) (r : Fin 1024) : EReal :=
  (Finset.univ : Finset (Fin 1024)).fold min top (fun c => dK P T (at16 i r) (at16 j c))

/-- The running minimum of row `r` along the row of tiles `i`, after tile `j`. -/
def acc (P T : Cloud) (i : Fin 16) : (j : ℕ) → j < 16 → Fin 1024 → EReal
  | 0, h => rowmin P T i ⟨0, h⟩
  | j + 1, h => fun r => min (acc P T i j (Nat.lt_of_succ_lt h) r) (rowmin P T i ⟨j + 1, h⟩ r)

/-- The clamped running minimum after the last tile of the row. -/
def near1K (P T : Cloud) (i : Fin 16) (r : Fin 1024) : EReal := max (acc P T i 15 (by decide) r) zero

/-- The clamped minimum of column `m` inside the tiles of row `i`. -/
def colmin (P T : Cloud) (i : Fin 16) (m : Fin 16384) : EReal :=
  max ((Finset.univ : Finset (Fin 1024)).fold min top (fun r => dK P T (at16 i r) m)) zero

/-- Their minimum across the 16 rows of tiles. -/
def near2K (P T : Cloud) (m : Fin 16384) : EReal := (Finset.univ : Finset (Fin 16)).fold min top (fun i => colmin P T i m)

/-! ## The two means, as the programs' common last lines -/

abbrev S_ : Shape := ⟨0, ![]⟩
abbrev S16384 : Shape := ⟨1, ![16384]⟩
abbrev S16384x3 : Shape := ⟨2, ![16384, 3]⟩
abbrev S1x16384x3 : Shape := ⟨3, ![1, 16384, 3]⟩

/-- The sum of each vector of nearest distances from the literal zero, divided by the literal 16384, and the two
    quotients added: the host lines both programs end with. -/
def tail (d1 d2 : FVec Ideal S16384 .f32) : FVec Ideal S_ .f32 :=
  addf (Host.divf (F := Ideal) (Host.reduceAdd (F := Ideal) d1 (constant (F := Ideal) S_ .f32 0x00000000#32) (show S16384.ReducesTo [0] S_ by decide) (by decide)) (constant (F := Ideal) S_ .f32 0x46800000#32))
    (Host.divf (F := Ideal) (Host.reduceAdd (F := Ideal) d2 (constant (F := Ideal) S_ .f32 0x00000000#32) (show S16384.ReducesTo [0] S_ by decide) (by decide)) (constant (F := Ideal) S_ .f32 0x46800000#32))

/-- The cloud an argument array of shape [1, 16384, 3] holds: its reshape to [16384, 3], by coordinates. -/
def cloud (x : FVec Ideal S1x16384x3 .f32) : Cloud := fun n k => shapeCast S16384x3 x (by decide) (ix2 n k)

/-- The loss. -/
def result (P T : Cloud) : FVec Ideal S_ .f32 :=
  tail (fun j => near1 P T (j 0)) (fun j => near2 P T (j 0))

end Chamfer

end
-- ==== Proof.KernelIdeal.Payloads.lean ====
/-
  The tile's arithmetic read at an index, over the extended reals.  For a tile of 1024 points of each cloud, with the
  squared norms of the two sides given as a column and as a row: entry (r, c) of the table is the sum of the two
  squared norms less the inner product whose left factor carries the factor 2; the row minimum and the column minimum
  are folds of min from +∞ over the table's row and column; the running minimum takes the stored value against the row
  minimum; and the clamps are the maximum with zero.
-/
import proofs.«112530_j80676665688371_2_alg».proof.Proof.Gen.KernelIdeal.Skeleton
import proofs.«112530_j80676665688371_2_alg».proof.Proof.Chamfer
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.SL.Sem Idealize.ShloMosaic.ValueIdx

/-- The contraction of the tile's inner product: one axis of three coordinates on each side. -/
abbrev D : DotDims S1024x3 S1024x3 S1024x1024 := dot_S1024x3_S1024x3_S1024x1024_1_1_0_0_n_n

/-- The left operand's row coordinate is the table's row. -/
theorem lhs_D_0 (i : S1024x1024.Idx) (q : D.contr.Idx) : (D.lhsIdx i q 0).val = (i 0).val := by
  unfold DotDims.lhsIdx
  rw [dif_neg (show ¬(0 : Fin S1024x3.rank) ∈ D.lhsBatch by decide), dif_pos (show (0 : Fin S1024x3.rank) ∈ D.lhsNonContracting by decide)]
  rfl

/-- The right operand's row coordinate is the table's column. -/
theorem rhs_D_0 (i : S1024x1024.Idx) (q : D.contr.Idx) : (D.rhsIdx i q 0).val = (i 1).val := by
  unfold DotDims.rhsIdx
  rw [dif_neg (show ¬(0 : Fin S1024x3.rank) ∈ D.rhsBatch by decide), dif_pos (show (0 : Fin S1024x3.rank) ∈ D.rhsNonContracting by decide)]
  rfl

/-- The product into a zero accumulator, at (r, c): the inner product of row r of the left and row c of the right. -/
theorem tile_matmul_apply (a b : FVec Ideal S1024x3 .f32) (r c : Fin 1024) :
    FloatOps.matmul D (some .fp32) a b (constant S1024x1024 .f32 0x00000000#32) (ix2 r c)
      = ∑ k : Fin 3, a (ix2 r k) * b (ix2 c k) := by
  refine (Ideal.matmul_constant_zero_apply D (some .fp32) a b (ix2 r c)).trans ?_
  rw [← Equiv.sum_comp (contrEquiv1 D 3 rfl rfl).symm]
  refine Finset.sum_congr rfl fun k _ => ?_
  have hk := contrEquiv1_symm_val D 3 rfl rfl k
  have el : D.lhsIdx (ix2 r c) ((contrEquiv1 D 3 rfl rfl).symm k) = ix2 r k := funext fun x => Fin.ext (by
    match x with
    | ⟨0, _⟩ => exact lhs_D_0 _ _
    | ⟨1, _⟩ => exact (D.lhsIdx_val_of_single rfl _ _).trans hk)
  have er : D.rhsIdx (ix2 r c) ((contrEquiv1 D 3 rfl rfl).symm k) = ix2 c k := funext fun x => Fin.ext (by
    match x with
    | ⟨0, _⟩ => exact rhs_D_0 _ _
    | ⟨1, _⟩ => exact (D.rhsIdx_val_of_single rfl _ _).trans hk)
  rw [el, er]

/-- The unclamped squared distances of a tile, at (r, c). -/
theorem pay1_apply (x0 x1 : Vec Ideal S1024x3 .f32) (x2 : Vec Ideal S1024x1 .f32) (x3 : Vec Ideal S1x1024 .f32) (r c : Fin 1024) :
    k0_pay1 (F := Ideal) x0 x1 x2 x3 (ix2 r c)
      = (x2 (ix2 r 0) + x3 (ix2 0 c)) - ∑ k : Fin 3, (x0 (ix2 r k) * Chamfer.two) * x1 (ix2 c k) := by
  unfold k0_pay1
  simp only [shapeCast_self]
  have hb2 : broadcastTo S1024x1024 x2 broadcasts_S1024x1_S1024x1024 (ix2 r c) = x2 (ix2 r 0) :=
    broadcastTo_apply x2 broadcasts_S1024x1_S1024x1024 (ix2 r c) (ix2 r 0) (fun a => match a with
      | ⟨0, _⟩ => by show r.val = if (1024 : Nat) = 1 then 0 else r.val; rw [if_neg (by decide)]
      | ⟨1, _⟩ => by show 0 = if (1 : Nat) = 1 then 0 else c.val; rw [if_pos rfl])
  have hb3 : broadcastTo S1024x1024 x3 broadcasts_S1x1024_S1024x1024 (ix2 r c) = x3 (ix2 0 c) :=
    broadcastTo_apply x3 broadcasts_S1x1024_S1024x1024 (ix2 r c) (ix2 0 c) (fun a => match a with
      | ⟨0, _⟩ => by show 0 = if (1 : Nat) = 1 then 0 else r.val; rw [if_pos rfl]
      | ⟨1, _⟩ => by show c.val = if (1024 : Nat) = 1 then 0 else c.val; rw [if_neg (by decide)])
  have hm := tile_matmul_apply (mulf (F := Ideal) (φ := .f32) x0 (broadcast S1024x3 (FloatOps.ofBits (F := Ideal) .f32 0x40000000#32))) x1 r c
  show ((broadcastTo S1024x1024 x2 broadcasts_S1024x1_S1024x1024 (ix2 r c) : Ideal .f32)
      + (broadcastTo S1024x1024 x3 broadcasts_S1x1024_S1024x1024 (ix2 r c) : Ideal .f32))
    - FloatOps.matmul (F := Ideal) D (some .fp32) (mulf (F := Ideal) (φ := .f32) x0 (broadcast S1024x3 (FloatOps.ofBits (F := Ideal) .f32 0x40000000#32))) x1
        (constant (F := Ideal) S1024x1024 .f32 0x00000000#32) (ix2 r c) = _
  rw [hb2, hb3, hm]
  rfl

/-- The reduced index `r` with column `k` put back is (r, k). -/
theorem lift_col (h : S1024x1024.Reduces [1] S1024) (r : Fin 1024) (k : Fin (S1024x1024.size 1)) :
    h.lift (ix1 r) k = ix2 r (⟨k.val, k.isLt⟩ : Fin 1024) := by
  funext a; apply Fin.ext
  fin_cases a <;> rfl

/-- The reduced index `c` with row `k` put back is (k, c). -/
theorem lift_row (h : S1024x1024.Reduces [0] S1024) (c : Fin 1024) (k : Fin (S1024x1024.size 0)) :
    h.lift (ix1 c) k = ix2 (⟨k.val, k.isLt⟩ : Fin 1024) c := by
  funext a; apply Fin.ext
  fin_cases a <;> rfl

/-- A minimum-reduction over one axis, at the extended reals: the fold of min from the accumulator's value over that
    axis's coordinates. -/
theorem minReduce_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A minimum-reduction from +∞ along the rows of a tile, at row r: the fold of min over the row. -/
theorem rowReduce_apply (y : FVec Ideal S1024x1024 .f32) (r : Fin 1024) :
    multiReduction (F := Ideal) .minimumf [1] S1024 y 0x7F800000#32 reduces_S1024x1024_S1024 (.inl rfl) rfl (ix1 r)
      = (Finset.univ : Finset (Fin 1024)).fold min Chamfer.top (fun c => y (ix2 r c)) := by
  refine (minReduce_single y 0x7F800000#32 reduces_S1024x1024_S1024 (.inl rfl) rfl (ix1 r)).trans ?_
  have hf : (y ∘ reduces_S1024x1024_S1024.lift (ix1 r)) = fun c : Fin 1024 => y (ix2 r c) :=
    funext fun k => congrArg y (lift_col reduces_S1024x1024_S1024 r k)
  rw [hf]
  rfl

/-- A minimum-reduction from +∞ along the columns of a tile, at column c: the fold of min over the column. -/
theorem colReduce_apply (y : FVec Ideal S1024x1024 .f32) (c : Fin 1024) :
    multiReduction (F := Ideal) .minimumf [0] S1024 y 0x7F800000#32 reduces_S1024x1024_S1024_2 (.inl rfl) rfl (ix1 c)
      = (Finset.univ : Finset (Fin 1024)).fold min Chamfer.top (fun r => y (ix2 r c)) := by
  refine (minReduce_single y 0x7F800000#32 reduces_S1024x1024_S1024_2 (.inl rfl) rfl (ix1 c)).trans ?_
  have hf : (y ∘ reduces_S1024x1024_S1024_2.lift (ix1 c)) = fun r : Fin 1024 => y (ix2 r c) :=
    funext fun k => congrArg y (lift_row reduces_S1024x1024_S1024_2 c k)
  rw [hf]
  rfl

/-- A vector of 1024 entries cast to one column, read at (r, 0), is entry r. -/
theorem cast_col_apply {α : Type} (z : S1024.Idx → α) (r : Fin 1024) :
    shapeCast S1024x1 z shapeCasts_S1024_S1024x1 (ix2 r (0 : Fin 1)) = z (ix1 r) :=
  shapeCast_apply z shapeCasts_S1024_S1024x1 _ _ (by
    rw [Shape.rowMajor_val_one, Shape.rowMajor_val_two]
    show r.val = r.val * 1 + 0
    omega)

/-- A vector of 1024 entries cast to one row, read at (0, c), is entry c. -/
theorem cast_row_apply {α : Type} (z : S1024.Idx → α) (c : Fin 1024) :
    shapeCast S1x1024 z shapeCasts_S1024_S1x1024 (ix2 (0 : Fin 1) c) = z (ix1 c) :=
  shapeCast_a_1a_apply z shapeCasts_S1024_S1x1024 0 c

/-- One row of 1024 entries cast to [1, 1, 1024], read at (0, 0, c), is entry (0, c). -/
theorem cast_row3_apply {α : Type} (z : S1x1024.Idx → α) (c : Fin 1024) :
    shapeCast S1x1x1024 z shapeCasts_S1x1024_S1x1x1024 (ix3 (0 : Fin 1) (0 : Fin 1) c) = z (ix2 (0 : Fin 1) c) :=
  shapeCast_ab_1ab_apply z shapeCasts_S1x1024_S1x1x1024 0 0 c

/-- The minimum of row r of a tile. -/
theorem pay2_apply (x0 x1 : Vec Ideal S1024x3 .f32) (x2 : Vec Ideal S1024x1 .f32) (x3 : Vec Ideal S1x1024 .f32) (r : Fin 1024) :
    k0_pay2 (F := Ideal) x0 x1 x2 x3 (ix2 r 0)
      = (Finset.univ : Finset (Fin 1024)).fold min Chamfer.top (fun c => k0_pay1 (F := Ideal) x0 x1 x2 x3 (ix2 r c)) := by
  unfold k0_pay2
  exact (cast_col_apply _ r).trans (rowReduce_apply (k0_pay1 (F := Ideal) x0 x1 x2 x3) r)

/-- The stored copy of the row minimum is the row minimum. -/
theorem pay3_apply (x0 x1 : Vec Ideal S1024x3 .f32) (x2 : Vec Ideal S1024x1 .f32) (x3 : Vec Ideal S1x1024 .f32) (r : Fin 1024) :
    k0_pay3 (F := Ideal) x0 x1 x2 x3 (ix2 r 0) = k0_pay2 (F := Ideal) x0 x1 x2 x3 (ix2 r 0) := by
  unfold k0_pay3
  exact congrFun (shapeCast_self _ shapeCasts_S1024x1_S1024x1) (ix2 r 0)

/-- The running minimum: the stored value against the tile's row minimum. -/
theorem pay4_apply (x0 x1 : Vec Ideal S1024x3 .f32) (x2 : Vec Ideal S1024x1 .f32) (x3 : Vec Ideal S1x1024 .f32)
    (xs : Vec Ideal S1024x1 .f32) (r : Fin 1024) :
    k0_pay4 (F := Ideal) x0 x1 x2 x3 xs (ix2 r 0) = min (xs (ix2 r 0)) (k0_pay2 (F := Ideal) x0 x1 x2 x3 (ix2 r 0)) := by
  unfold k0_pay4
  exact congrFun (shapeCast_self (minimumf (F := Ideal) (φ := .f32) xs (k0_pay2 (F := Ideal) x0 x1 x2 x3)) shapeCasts_S1024x1_S1024x1) (ix2 r 0)

/-- The clamp at zero. -/
theorem pay5_apply (v : Vec Ideal S1024x1 .f32) (r : Fin 1024) :
    k0_pay5 (F := Ideal) v (ix2 r 0) = max (v (ix2 r 0)) Chamfer.zero := by
  unfold k0_pay5
  rfl

/-- The clamped minimum of column c of a tile. -/
theorem pay6_apply (x0 x1 : Vec Ideal S1024x3 .f32) (x2 : Vec Ideal S1024x1 .f32) (x3 : Vec Ideal S1x1024 .f32) (c : Fin 1024) :
    k0_pay6 (F := Ideal) x0 x1 x2 x3 (ix3 0 0 c)
      = max ((Finset.univ : Finset (Fin 1024)).fold min Chamfer.top (fun r => k0_pay1 (F := Ideal) x0 x1 x2 x3 (ix2 r c))) Chamfer.zero := by
  unfold k0_pay6
  refine (cast_row3_apply _ c).trans ?_
  refine (maximumf_apply _ _ _).trans ?_
  refine congrArg (fun t : EReal => max t Chamfer.zero) ?_
  refine (cast_row_apply _ c).trans ?_
  exact colReduce_apply _ c

end Cert.KernelIdeal.Pay

end
-- ==== Proof.ChamferLaws.lean ====
/-
  The laws that carry the tiled arrangement of the chamfer loss to the direct one, over the extended reals: the
  three literals as extended reals; the factor 2 moved out of the inner product; a minimum started from +∞ is a
  finite infimum; the clamp `max · 0` commutes with every finite infimum; the 16384 entries of an axis are the
  16 × 1024 entries of its tiles; a running minimum along a row of tiles is the infimum over the tiles passed.
-/
import proofs.«112530_j80676665688371_2_alg».proof.Proof.Chamfer

noncomputable section

namespace Chamfer

open Idealize.ShloMosaic

/-! ## The literals -/

/-- The word `0x7F800000` is +∞. -/
theorem top_eq : top = (⊤ : EReal) := by
  simp [top, Ideal.ofBits, Ideal.ieee]

/-- The word `0x00000000` is 0. -/
theorem zero_eq : zero = (0 : EReal) := by
  simp [zero, Ideal.ofBits, Ideal.ieee]

/-- The word `0x40000000` is the real 2. -/
theorem two_eq : two = ((2 : ℝ) : EReal) := by
  simp [two, Ideal.ofBits, Ideal.ieee, -EReal.coe_mul]; norm_num

/-! ## The factor 2 -/

/-- Multiplication by the positive real 2 distributes over every sum of two extended reals. -/
theorem two_mul_add (x y : EReal) :
    ((2 : ℝ) : EReal) * (x + y) = ((2 : ℝ) : EReal) * x + ((2 : ℝ) : EReal) * y :=
  EReal.left_distrib_of_nonneg_of_ne_top (by exact_mod_cast (by norm_num : (0 : ℝ) ≤ 2)) (EReal.coe_ne_top 2) x y

/-- The inner product with 2 inside its left factor is twice the inner product. -/
theorem cross_two (P T : Cloud) (n m : Fin 16384) :
    ∑ k : Fin 3, (P n k * two) * T m k = two * cross P T n m := by
  rw [two_eq, cross, Fin.sum_univ_three, Fin.sum_univ_three, two_mul_add, two_mul_add]
  simp only [mul_comm, mul_left_comm, mul_assoc]

/-- The tiled arrangement's unclamped distance, clamped, is the direct arrangement's distance. -/
theorem dK_eq (P T : Cloud) (n m : Fin 16384) : max (dK P T n m) zero = dist P T n m := by
  rw [dK, dist, cross_two]

/-! ## Minima started from +∞ are finite infima -/

/-- A minimum over a finite set started from the literal +∞ is the infimum over the set. -/
theorem fold_min_top {ι : Type} (s : Finset ι) (f : ι → EReal) : s.fold min top f = s.inf f := by
  rw [top_eq]; rfl

/-- The clamp commutes with a finite infimum. -/
theorem max_inf_zero {ι : Type} (s : Finset ι) (f : ι → EReal) :
    max (s.inf f) zero = s.inf (fun i => max (f i) zero) :=
  Finset.inf_sup_distrib_right s f zero

/-- An infimum of infima lies below every entry. -/
theorem inf_inf_le {ι κ : Type} (s : Finset ι) (t : Finset κ) (g : ι → κ → EReal) {i : ι} {r : κ}
    (hi : i ∈ s) (hr : r ∈ t) : s.inf (fun i => t.inf (fun r => g i r)) ≤ g i r :=
  (Finset.inf_le (f := fun i => t.inf (fun r => g i r)) hi).trans (Finset.inf_le (f := fun r => g i r) hr)

/-- Every entry of an axis of 16384 is entry `n % 1024` of tile `n / 1024`. -/
theorem at16_surj (n : Fin 16384) : ∃ i r, n = at16 i r := by
  have hn := n.isLt
  exact ⟨⟨n.val / 1024, by omega⟩, ⟨n.val % 1024, by omega⟩, by apply Fin.ext; simp only [at16]; omega⟩

/-- The entries of an axis of 16384 are the entries of its 16 tiles of 1024. -/
theorem inf_at16 (f : Fin 16384 → EReal) :
    (Finset.univ : Finset (Fin 16384)).inf f
      = (Finset.univ : Finset (Fin 16)).inf (fun i => (Finset.univ : Finset (Fin 1024)).inf (fun r => f (at16 i r))) := by
  apply le_antisymm
  · exact Finset.le_inf fun i _ => Finset.le_inf fun r _ => Finset.inf_le (f := f) (Finset.mem_univ (at16 i r))
  · refine Finset.le_inf fun n _ => ?_
    obtain ⟨i, r, rfl⟩ := at16_surj n
    exact inf_inf_le Finset.univ Finset.univ (fun i r => f (at16 i r)) (Finset.mem_univ i) (Finset.mem_univ r)

/-! ## The running minimum -/

/-- The minimum of a row of a tile is the infimum of its entries. -/
theorem rowmin_eq (P T : Cloud) (i j : Fin 16) (r : Fin 1024) :
    rowmin P T i j r = (Finset.univ : Finset (Fin 1024)).inf (fun c => dK P T (at16 i r) (at16 j c)) :=
  fold_min_top _ _

/-- The running minimum after tile `j` lies above exactly the lower bounds of the tiles up to `j`. -/
theorem le_acc_iff (P T : Cloud) (i : Fin 16) (r : Fin 1024) (x : EReal) :
    ∀ (j : ℕ) (h : j < 16), x ≤ acc P T i j h r ↔ ∀ j' : Fin 16, j'.val ≤ j → x ≤ rowmin P T i j' r
  | 0, h => by
      constructor
      · intro hx j' hj'
        have : j' = ⟨0, h⟩ := Fin.ext (by simpa using hj')
        rw [this]; exact hx
      · intro hx; exact hx ⟨0, h⟩ (le_refl _)
  | j + 1, h => by
      have ih := le_acc_iff P T i r x j (Nat.lt_of_succ_lt h)
      show x ≤ min (acc P T i j (Nat.lt_of_succ_lt h) r) (rowmin P T i ⟨j + 1, h⟩ r) ↔ _
      rw [le_min_iff, ih]
      constructor
      · rintro ⟨h1, h2⟩ j' hj'
        rcases Nat.lt_or_ge j'.val (j + 1) with hlt | hge
        · exact h1 j' (Nat.lt_succ_iff.mp hlt)
        · have : j' = ⟨j + 1, h⟩ := Fin.ext (le_antisymm hj' hge)
          rw [this]; exact h2
      · intro hx
        exact ⟨fun j' hj' => hx j' (Nat.le_succ_of_le hj'), hx ⟨j + 1, h⟩ (le_refl _)⟩

/-- The running minimum after the last tile is the infimum over the 16 tiles of the row. -/
theorem acc_last (P T : Cloud) (i : Fin 16) (r : Fin 1024) :
    acc P T i 15 (by decide) r = (Finset.univ : Finset (Fin 16)).inf (fun j => rowmin P T i j r) := by
  apply le_antisymm
  · refine Finset.le_inf fun j _ => ?_
    exact (le_acc_iff P T i r _ 15 (by decide)).mp (le_refl _) j (Nat.lt_succ_iff.mp j.isLt)
  · rw [le_acc_iff]
    intro j' _
    exact Finset.inf_le (f := fun j => rowmin P T i j r) (Finset.mem_univ _)

/-! ## The two nearest-point vectors -/

/-- The clamped running minimum of row `r` of the row of tiles `i` is the nearest distance of that point. -/
theorem near1K_eq (P T : Cloud) (i : Fin 16) (r : Fin 1024) : near1K P T i r = near1 P T (at16 i r) := by
  rw [near1K, near1, fold_min_top, acc_last, inf_at16]
  simp only [rowmin_eq, max_inf_zero, dK_eq]

/-- The minimum across the 16 rows of tiles of the clamped column minima is the nearest distance of that point. -/
theorem near2K_eq (P T : Cloud) (m : Fin 16384) : near2K P T m = near2 P T m := by
  rw [near2K, near2, fold_min_top, fold_min_top, inf_at16]
  simp only [colmin, fold_min_top, max_inf_zero, dK_eq]

end Chamfer

end
-- ==== Proof.KernelIdeal.Host.lean ====
/-
  The host lines of the tiled program around its one region, read over the extended reals: the four arrays the region
  is handed are the two clouds and their squared norms (as a column and as a row), and the lines after the region turn
  the region's two result arrays into the loss.
-/
import proofs.«112530_j80676665688371_2_alg».proof.Proof.Gen.KernelIdeal.Frame
import proofs.«112530_j80676665688371_2_alg».proof.Proof.ChamferLaws
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HostRead

open Cert.KernelIdeal Cert.KernelIdeal.Gen Idealize.ShloMosaic Idealize.ShloMosaic.TcCoe Idealize.SL.Sem
open Idealize.ShloMosaic.StableHlo Idealize.ShloMosaic.ValueIdx

/-- The two clouds the program's arguments hold. -/
abbrev P (m : (ℓ : Loc nD τ sig) → Buf (Elt Ideal) ℓ) (c : Dev nD) : Chamfer.Cloud :=
  Chamfer.cloud (m ((c : Thread nD τ).loc main_arg0))
abbrev T (m : (ℓ : Loc nD τ sig) → Buf (Elt Ideal) ℓ) (c : Dev nD) : Chamfer.Cloud :=
  Chamfer.cloud (m ((c : Thread nD τ).loc main_arg1))

variable (m : (ℓ : Loc nD τ sig) → Buf (Elt Ideal) ℓ) (c : Dev nD)

/-! ## The four arrays the region is handed -/

/-- The first argument reshaped to 16384 × 3: the first cloud by coordinates. -/
theorem e_v0 : (Gen.V m c main_v0 : S16384x3.Idx → EReal)
    = shapeCast S16384x3 (m ((c : Thread nD τ).loc main_arg0)) shapeCasts_S1x16384x3_S16384x3 := by
  show StableHlo.after hostOps0 (fun b => m (c, b)) (Proc.devRef .tc main_v0) = _
  after_results
  rfl

theorem V_v0 (n : Fin 16384) (k : Fin 3) : Gen.V m c main_v0 (ix2 n k) = P m c n k := by
  rw [e_v0]; rfl

/-- The second argument reshaped to 16384 × 3: the second cloud by coordinates. -/
theorem e_v1 : (Gen.V m c main_v1 : S16384x3.Idx → EReal)
    = shapeCast S16384x3 (m ((c : Thread nD τ).loc main_arg1)) shapeCasts_S1x16384x3_S16384x3 := by
  show StableHlo.after hostOps0 (fun b => m (c, b)) (Proc.devRef .tc main_v1) = _
  after_results
  rfl

theorem V_v1 (n : Fin 16384) (k : Fin 3) : Gen.V m c main_v1 (ix2 n k) = T m c n k := by
  rw [e_v1]; rfl

/-- The squared norms of the points of the cloud an argument holds, as the host lines compute them: the sum along
    each row of the entrywise square, started from the literal zero. -/
def sqOf (x : S1x16384x3.Idx → EReal) : S16384.Idx → EReal :=
  Host.reduceAdd (F := Ideal)
    (mulf (F := Ideal) (shapeCast S16384x3 x shapeCasts_S1x16384x3_S16384x3 : FVec Ideal S16384x3 .f32)
      (shapeCast S16384x3 x shapeCasts_S1x16384x3_S16384x3))
    (constant (F := Ideal) S_ .f32 0x00000000#32) reducesTo_S16384x3_S16384_d1 h_S_

/-- Entry `n` of that vector is the squared norm of point `n`. -/
theorem sqOf_apply (x : S1x16384x3.Idx → EReal) (n : Fin 16384) : sqOf x (ix1 n) = Chamfer.sq (Chamfer.cloud x) n := by
  have h : S16384x3.Reduces [1] S16384 := by decide
  unfold sqOf
  simp only [Host.reduceAdd, Ideal.hostReduceAdd_def]
  rw [Ideal.hostReduceAdd_single reducesTo_S16384x3_S16384_d1 h]
  unfold Chamfer.sq
  refine congrArg₂ (· + ·) rfl (Finset.sum_congr rfl fun k _ => ?_)
  have hl : h.lift (ix1 n) k = ix2 n (⟨k.val, k.isLt⟩ : Fin 3) :=
    funext fun a => Fin.ext (by match a with | ⟨0, _⟩ => rfl | ⟨1, _⟩ => rfl)
  rw [hl]
  rfl

/-- The squared norms of the first cloud as a column. -/
theorem e_v4 : (Gen.V m c main_v4 : S16384x1.Idx → EReal)
    = broadcastInDim S16384x1 ![0] bcast_S16384_S16384x1_0 (sqOf (m ((c : Thread nD τ).loc main_arg0))) := by
  show StableHlo.after hostOps0 (fun b => m (c, b)) (Proc.devRef .tc main_v4) = _
  after_results
  rfl

/-- A column made of a vector, read at row `n`, is the vector's entry `n`. -/
theorem column_apply (y : S16384.Idx → EReal) (n : Fin 16384) :
    broadcastInDim S16384x1 ![0] bcast_S16384_S16384x1_0 y (ix2 n (0 : Fin 1)) = y (ix1 n) :=
  broadcastInDim_apply _ bcast_S16384_S16384x1_0 y (ix2 n (0 : Fin 1)) (ix1 n) (fun a => match a with
    | ⟨0, _⟩ => by show n.val = if (16384 : Nat) = 1 then 0 else n.val; rw [if_neg (by decide)])

theorem V_v4 (n : Fin 16384) : Gen.V m c main_v4 (ix2 n (0 : Fin 1)) = Chamfer.sq (P m c) n := by
  rw [e_v4]
  exact (column_apply _ n).trans (sqOf_apply _ n)

/-- The squared norms of the second cloud as a row: the column reshaped. -/
theorem e_v8 : (Gen.V m c main_v8 : S1x16384.Idx → EReal)
    = shapeCast S1x16384 (broadcastInDim S16384x1 ![0] bcast_S16384_S16384x1_0 (sqOf (m ((c : Thread nD τ).loc main_arg1))))
        shapeCasts_S16384x1_S1x16384 := by
  show StableHlo.after hostOps0 (fun b => m (c, b)) (Proc.devRef .tc main_v8) = _
  after_results
  rfl

/-- A column reshaped to a row, read at entry `n`, is the column's row `n`. -/
theorem row_of_column_apply (y : S16384x1.Idx → EReal) (n : Fin 16384) :
    shapeCast S1x16384 y shapeCasts_S16384x1_S1x16384 (ix2 (0 : Fin 1) n) = y (ix2 n (0 : Fin 1)) :=
  shapeCast_apply y shapeCasts_S16384x1_S1x16384 (ix2 (0 : Fin 1) n) (ix2 n (0 : Fin 1))
    (by rw [Shape.rowMajor_val_two, Shape.rowMajor_val_two]; show n.val * 1 + 0 = 0 * 16384 + n.val; omega)

theorem V_v8 (n : Fin 16384) : Gen.V m c main_v8 (ix2 (0 : Fin 1) n) = Chamfer.sq (T m c) n := by
  rw [e_v8]
  exact (row_of_column_apply _ n).trans ((column_apply _ n).trans (sqOf_apply _ n))

/-! ## The lines after the region -/

/-- The host lines after the region, as a function of the region's two result arrays: the first reshaped to a
    vector; the second reshaped to 16 rows and reduced by minimum from +∞ along the rows' axis; then the two means added. -/
def tailOf (A4 : S16384x1.Idx → EReal) (A5 : S16x1x16384.Idx → EReal) : S_.Idx → EReal :=
  Chamfer.tail (shapeCast S16384 A4 shapeCasts_S16384x1_S16384)
    (Host.reduce (FloatOps.minimumf (F := Ideal) (φ := .f32))
      (shapeCast S16x16384 A5 shapeCasts_S16x1x16384_S16x16384 : FVec Ideal S16x16384 .f32)
      (constant (F := Ideal) S_ .f32 0x7F800000#32) reducesTo_S16x16384_S16384_d0 h_S_)

/-- A column reshaped to a vector, read at entry `n`, is the column's row `n`. -/
theorem vector_of_column_apply (y : S16384x1.Idx → EReal) (n : Fin 16384) :
    shapeCast S16384 y shapeCasts_S16384x1_S16384 (ix1 n) = y (ix2 n (0 : Fin 1)) :=
  shapeCast_apply y shapeCasts_S16384x1_S16384 (ix1 n) (ix2 n (0 : Fin 1))
    (by rw [Shape.rowMajor_val_two, Shape.rowMajor_val_one]; show n.val * 1 + 0 = n.val; omega)

/-- The 16 × 1 × 16384 array reshaped to 16 rows, read at (i, n). -/
theorem rows_apply (y : S16x1x16384.Idx → EReal) (i : Fin 16) (n : Fin 16384) :
    shapeCast S16x16384 y shapeCasts_S16x1x16384_S16x16384 (ix2 i n) = y (ix3 i (0 : Fin 1) n) :=
  shapeCast_apply y shapeCasts_S16x1x16384_S16x16384 (ix2 i n) (ix3 i (0 : Fin 1) n)
    (by rw [Shape.rowMajor_val_three, Shape.rowMajor_val_two]
        show (i.val * 1 + 0) * 16384 + n.val = i.val * 16384 + n.val; omega)

/-- The reduced index `n` with row `k` put back is (k, n). -/
theorem lift_row16 (h : S16x16384.Reduces [0] S16384) (n : Fin 16384) (k : Fin (S16x16384.size 0)) :
    h.lift (ix1 n) k = ix2 (⟨k.val, k.isLt⟩ : Fin 16) n := by
  funext a; apply Fin.ext
  fin_cases a <;> rfl

/-- When the first result array holds the clamped running minima and the second the clamped column minima of the
    tiles, the lines after the region compute the loss. -/
theorem tailOf_eq (A4 : S16384x1.Idx → EReal) (A5 : S16x1x16384.Idx → EReal) (P T : Chamfer.Cloud)
    (h4 : ∀ (i : Fin 16) (r : Fin 1024), A4 (ix2 (Chamfer.at16 i r) (0 : Fin 1)) = Chamfer.near1K P T i r)
    (h5 : ∀ (i : Fin 16) (n : Fin 16384), A5 (ix3 i (0 : Fin 1) n) = Chamfer.colmin P T i n) :
    tailOf A4 A5 = Chamfer.result P T := by
  have h1 : shapeCast S16384 A4 shapeCasts_S16384x1_S16384 = fun j => Chamfer.near1 P T (j 0) := by
    funext j
    obtain ⟨n, rfl⟩ : ∃ n, j = ix1 n := ⟨j 0, eq_ix1 j⟩
    obtain ⟨i, r, rfl⟩ := Chamfer.at16_surj n
    exact (vector_of_column_apply A4 _).trans ((h4 i r).trans (Chamfer.near1K_eq P T i r))
  have h2 : Host.reduce (FloatOps.minimumf (F := Ideal) (φ := .f32))
      (shapeCast S16x16384 A5 shapeCasts_S16x1x16384_S16x16384 : FVec Ideal S16x16384 .f32)
      (constant (F := Ideal) S_ .f32 0x7F800000#32) reducesTo_S16x16384_S16384_d0 h_S_
      = fun j => Chamfer.near2 P T (j 0) := by
    funext j
    obtain ⟨n, rfl⟩ : ∃ n, j = ix1 n := ⟨j 0, eq_ix1 j⟩
    have h : S16x16384.Reduces [0] S16384 := by decide
    rw [Host.reduce_eq_fold_single FloatOps.minimumf _ _ reducesTo_S16x16384_S16384_d0 h h_S_]
    have hf : ((shapeCast S16x16384 A5 shapeCasts_S16x1x16384_S16x16384 : FVec Ideal S16x16384 .f32) ∘ h.lift (ix1 n))
        = fun i : Fin 16 => Chamfer.colmin P T i n :=
      funext fun k => (congrArg (shapeCast S16x16384 A5 shapeCasts_S16x1x16384_S16x16384) (lift_row16 h n k)).trans
        ((rows_apply A5 _ n).trans (h5 _ n))
    rw [hf]
    exact Chamfer.near2K_eq P T n
  unfold tailOf Chamfer.result
  rw [h1, h2]

/-- The program's result buffer after the lines that follow the region, for any proof data of the region: those
    lines applied to the two result arrays the region leaves. -/
theorem afterTail_eq (dats : (p : Fin 1) → (c : Dev nD) → Pipeline.Dat τ (Elt Ideal) Unit ℕ (UR sig nD τ) ℕ (cfgs p) c) (c : Dev nD) :
    Pipeline.afterTail₀ cfgs dats 0 (Gen.V0 m) [Gen.hostOps1] c main_v17
      = tailOf ((dats 0 c).arrAt 4 cfg0.N) ((dats 0 c).arrAt 5 cfg0.N) := by
  have e4 : Pipeline.withArrays (cfgs 0).spec c (V0 m c) (fun w => (dats 0 c).arrAt w (cfgs 0).N) (Proc.devRef .tc main_v9_0)
      = (dats 0 c).arrAt 4 cfg0.N :=
    Pipeline.withArrays_arr spec0 launch0.win.arr_inj c _ _ 4
  have e5 : Pipeline.withArrays (cfgs 0).spec c (V0 m c) (fun w => (dats 0 c).arrAt w (cfgs 0).N) (Proc.devRef .tc main_v9_1)
      = (dats 0 c).arrAt 5 cfg0.N :=
    Pipeline.withArrays_arr spec0 launch0.win.arr_inj c _ _ 5
  unfold Pipeline.afterTail₀
  show StableHlo.after hostOps1 _ (Proc.devRef .tc main_v17) = _
  after_results
  rw [e4, e5]
  rfl

end Cert.KernelIdeal.HostRead

end
-- ==== Proof.KernelIdeal.Value.lean ====
/-
  What the idealized kernel computes, read at the extended reals: its result is the chamfer loss of the two clouds its
  arguments hold.  Point `t` of the 16 × 16 grid works on tile (t / 16, t % 16) of the table of squared distances; the
  scratch carries the running minimum of each row along a row of tiles; the first output takes its clamp at the row's
  last tile, the second output the clamped column minima of every tile; the host lines after the region reduce the
  second output across the 16 rows of tiles and average.
-/
import proofs.«112530_j80676665688371_2_alg».proof.Proof.KernelIdeal.Pieces
import proofs.«112530_j80676665688371_2_alg».proof.Proof.KernelIdeal.Obligation
import proofs.«112530_j80676665688371_2_alg».proof.Proof.KernelIdeal.Payloads
import proofs.«112530_j80676665688371_2_alg».proof.Proof.KernelIdeal.Host
import proofs.«112530_j80676665688371_2_alg».proof.Proof.ChamferLaws
import Idealize.ShloMosaic.Lib.Pipeline.Value
import Idealize.ShloMosaic.Lib.ValueIdx

set_option maxRecDepth 16384

noncomputable section

namespace Cert.KernelIdeal.Body

open Cert.KernelIdeal Cert.KernelIdeal.Gen Cert.KernelIdeal.Pay Cert.KernelIdeal.HostRead
open Idealize.ShloMosaic Idealize.ShloMosaic.TcCoe Idealize.ShloMosaic.ValueIdx Idealize.SL.Sem
open Idealize.ShloMosaic.Pipeline (Dat)
open Chamfer

variable (m : (ℓ : Loc nD τ sig) → Buf (Elt Ideal) ℓ) (ρ : Dev nD → PrngReg)

/-- The two clouds the argument arrays hold. -/
abbrev PP (c : Dev nD) : Cloud := cloud (m ((c : Thread nD τ).loc main_arg0))
abbrev TT (c : Dev nD) : Cloud := cloud (m ((c : Thread nD τ).loc main_arg1))

/-- The row of tiles and the tile within it that point `t` works on. -/
def I (t : Fin cfg0.N) : Fin 16 := ⟨t.val / 16, by have := t.isLt; have : cfg0.N = 256 := N_0; omega⟩
def J (t : Fin cfg0.N) : Fin 16 := ⟨t.val % 16, Nat.mod_lt _ (by decide)⟩

/-- The printed index maps, decided over the grid. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0
    ∧ win0_5.index t (0 : Fin 3) = t.val / 16 ∧ win0_5.index t (1 : Fin 3) = 0 ∧ win0_5.index t (2 : Fin 3) = t.val % 16 :=
  (by decide +kernel : ∀ t : Fin grid0.N, _)

/-! ## The input blocks at a point -/

theorem blk0 (c : Dev nD) (t : Fin cfg0.N) (r : Fin 1024) (k : Fin 3) :
    (iblk m c 0 t : Vec Ideal S1024x3 .f32) (ix2 r k) = PP m c (at16 (I t) r) k := by
  refine Eq.trans ?_ (V_v0 m c (at16 (I t) r) k)
  unfold iblk
  rw [View.read_apply]
  show V m c main_v0 _ = V m c main_v0 _
  refine congrArg (V m c main_v0) ?_
  obtain ⟨e0, e1, -⟩ := idx_facts t
  funext a; apply Fin.ext
  match a with
  | ⟨0, _⟩ => show win0_0.index t (0 : Fin 2) * 1024 + 1 * r.val = t.val / 16 * 1024 + r.val; rw [e0]; omega
  | ⟨1, _⟩ => show win0_0.index t (1 : Fin 2) * 3 + 1 * k.val = k.val; rw [e1]; omega

theorem blk1 (c : Dev nD) (t : Fin cfg0.N) (r : Fin 1024) (k : Fin 3) :
    (iblk m c 1 t : Vec Ideal S1024x3 .f32) (ix2 r k) = TT m c (at16 (J t) r) k := by
  refine Eq.trans ?_ (V_v1 m c (at16 (J t) r) k)
  unfold iblk
  rw [View.read_apply]
  show V m c main_v1 _ = V m c main_v1 _
  refine congrArg (V m c main_v1) ?_
  obtain ⟨-, -, e0, e1, -⟩ := idx_facts t
  funext a; apply Fin.ext
  match a with
  | ⟨0, _⟩ => show win0_1.index t (0 : Fin 2) * 1024 + 1 * r.val = t.val % 16 * 1024 + r.val; rw [e0]; omega
  | ⟨1, _⟩ => show win0_1.index t (1 : Fin 2) * 3 + 1 * k.val = k.val; rw [e1]; omega

theorem blk2 (c : Dev nD) (t : Fin cfg0.N) (r : Fin 1024) :
    (iblk m c 2 t : Vec Ideal S1024x1 .f32) (ix2 r 0) = sq (PP m c) (at16 (I t) r) := by
  refine Eq.trans ?_ (V_v4 m c (at16 (I t) r))
  unfold iblk
  rw [View.read_apply]
  show V m c main_v4 _ = V m c main_v4 _
  refine congrArg (V m c main_v4) ?_
  obtain ⟨-, -, -, -, e0, e1, -⟩ := idx_facts t
  funext a; apply Fin.ext
  match a with
  | ⟨0, _⟩ => show win0_2.index t (0 : Fin 2) * 1024 + 1 * r.val = t.val / 16 * 1024 + r.val; rw [e0]; omega
  | ⟨1, _⟩ => show win0_2.index t (1 : Fin 2) * 1 + 1 * 0 = 0; rw [e1]

theorem blk3 (c : Dev nD) (t : Fin cfg0.N) (cc : Fin 1024) :
    (iblk m c 3 t : Vec Ideal S1x1024 .f32) (ix2 0 cc) = sq (TT m c) (at16 (J t) cc) := by
  refine Eq.trans ?_ (V_v8 m c (at16 (J t) cc))
  unfold iblk
  rw [View.read_apply]
  show V m c main_v8 _ = V m c main_v8 _
  refine congrArg (V m c main_v8) ?_
  obtain ⟨-, -, -, -, -, -, e0, e1, -⟩ := idx_facts t
  funext a; apply Fin.ext
  match a with
  | ⟨0, _⟩ => show win0_3.index t (0 : Fin 2) * 1 + 1 * 0 = 0; rw [e0]
  | ⟨1, _⟩ => show win0_3.index t (1 : Fin 2) * 1024 + 1 * cc.val = t.val % 16 * 1024 + cc.val; rw [e1]; omega

/-! ## The body's arithmetic at a point -/

/-- The tile's table of unclamped squared distances. -/
theorem pay1_at (c : Dev nD) (t : Fin cfg0.N) (r cc : Fin 1024) :
    k0_pay1 (F := Ideal) (iblk m c 0 t) (iblk m c 1 t) (iblk m c 2 t) (iblk m c 3 t) (ix2 r cc) = dK (PP m c) (TT m c) (at16 (I t) r) (at16 (J t) cc) := by
  refine (pay1_apply (iblk m c 0 t) (iblk m c 1 t) (iblk m c 2 t) (iblk m c 3 t) r cc).trans ?_
  rw [blk2, blk3]
  unfold dK
  refine congrArg (_ - ·) (Finset.sum_congr rfl fun k _ => ?_)
  rw [blk0, blk1]

/-- Its row minima. -/
theorem pay2_at (c : Dev nD) (t : Fin cfg0.N) (r : Fin 1024) :
    k0_pay2 (F := Ideal) (iblk m c 0 t) (iblk m c 1 t) (iblk m c 2 t) (iblk m c 3 t) (ix2 r 0) = rowmin (PP m c) (TT m c) (I t) (J t) r := by
  refine (pay2_apply (iblk m c 0 t) (iblk m c 1 t) (iblk m c 2 t) (iblk m c 3 t) r).trans ?_
  unfold rowmin
  exact congrArg (fun f => Finset.fold min top f (Finset.univ : Finset (Fin 1024))) (funext fun cc => pay1_at m c t r cc)

/-- Its clamped column minima. -/
theorem pay6_at (c : Dev nD) (t : Fin cfg0.N) (cc : Fin 1024) :
    k0_pay6 (F := Ideal) (iblk m c 0 t) (iblk m c 1 t) (iblk m c 2 t) (iblk m c 3 t) (ix3 0 0 cc) = colmin (PP m c) (TT m c) (I t) (at16 (J t) cc) := by
  refine (pay6_apply (iblk m c 0 t) (iblk m c 1 t) (iblk m c 2 t) (iblk m c 3 t) cc).trans ?_
  unfold colmin
  exact congrArg (fun f => max (Finset.fold min top f (Finset.univ : Finset (Fin 1024))) zero) (funext fun r => pay1_at m c t r cc)

theorem col_ix (y : S1024x1.Idx) : y = ix2 (y 0) (0 : Fin 1) := by
  funext a; apply Fin.ext
  match a with
  | ⟨0, _⟩ => rfl
  | ⟨1, _⟩ => have h : (y 1).val < 1 := (y 1).isLt; show (y 1).val = 0; omega

theorem out5_ix (y : S1x1x1024.Idx) : y = ix3 (0 : Fin 1) (0 : Fin 1) (y 2) := by
  funext a; apply Fin.ext
  match a with
  | ⟨0, _⟩ => have h : (y 0).val < 1 := (y 0).isLt; show (y 0).val = 0; omega
  | ⟨1, _⟩ => have h : (y 1).val < 1 := (y 1).isLt; show (y 1).val = 0; omega
  | ⟨2, _⟩ => rfl

/-! ## The scratch, point by point: the running minimum -/

theorem scr_first (c : Dev nD) (t : Fin cfg0.N) (h0 : t.val % 16 = 0) :
    (outsAt m c t.val t.isLt).2.2 = fun y => rowmin (PP m c) (TT m c) (I t) (J t) (y 0) := by
  have h15 : ¬t.val % 16 = 15 := by omega
  rw [outsAt_A m c t h0 h15, stA_scr]
  funext y
  obtain ⟨r, rfl⟩ : ∃ r : Fin 1024, y = ix2 r (0 : Fin 1) := ⟨y 0, col_ix y⟩
  exact (pay3_apply (iblk m c 0 t) (iblk m c 1 t) (iblk m c 2 t) (iblk m c 3 t) r).trans (pay2_at m c t r)

theorem scr_first' (c : Dev nD) (n : ℕ) (hn : n < cfg0.N) (h0 : n % 16 = 0) :
    (outsAt m c n hn).2.2 = fun y => rowmin (PP m c) (TT m c) (I ⟨n, hn⟩) (J ⟨n, hn⟩) (y 0) :=
  scr_first m c ⟨n, hn⟩ h0

/-- A later tile folds its row minima into what the tile before left. -/
theorem scr_step (c : Dev nD) (n : ℕ) (hn : n + 1 < cfg0.N) (h0 : ¬(n + 1) % 16 = 0) :
    (outsAt m c (n + 1) hn).2.2 = fun y =>
      min ((outsAt m c n (Nat.lt_of_succ_lt hn)).2.2 y) (rowmin (PP m c) (TT m c) (I ⟨n + 1, hn⟩) (J ⟨n + 1, hn⟩) (y 0)) := by
  by_cases h15 : (n + 1) % 16 = 15
  · have e : outsAt m c (n + 1) hn = stC m c ⟨n + 1, hn⟩ (fun h => h0 ((hcond1 ⟨n + 1, hn⟩).mp h)) ((hcond2 ⟨n + 1, hn⟩).mpr h0)
        ((hcond3 ⟨n + 1, hn⟩).mpr h15) (outsAt m c n (Nat.lt_of_succ_lt hn)).2.2 := (dif_neg h0).trans ((dif_pos h15).trans rfl)
    rw [e, stC_scr]
    funext y
    obtain ⟨r, rfl⟩ : ∃ r : Fin 1024, y = ix2 r (0 : Fin 1) := ⟨y 0, col_ix y⟩
    exact (pay4_apply _ _ _ _ _ r).trans (congrArg (min _) (pay2_at m c ⟨n + 1, hn⟩ r))
  · have e : outsAt m c (n + 1) hn = stB m c ⟨n + 1, hn⟩ (fun h => h0 ((hcond1 ⟨n + 1, hn⟩).mp h)) ((hcond2 ⟨n + 1, hn⟩).mpr h0)
        (fun h => h15 ((hcond3 ⟨n + 1, hn⟩).mp h)) (outsAt m c n (Nat.lt_of_succ_lt hn)).2.2 := (dif_neg h0).trans ((dif_neg h15).trans rfl)
    rw [e, stB_scr]
    funext y
    obtain ⟨r, rfl⟩ : ∃ r : Fin 1024, y = ix2 r (0 : Fin 1) := ⟨y 0, col_ix y⟩
    exact (pay4_apply _ _ _ _ _ r).trans (congrArg (min _) (pay2_at m c ⟨n + 1, hn⟩ r))

/-- After the point at position `j` of its row of tiles the scratch holds the running minimum after tile `j`. -/
theorem scr_inv (c : Dev nD) : ∀ (n : ℕ) (hn : n < cfg0.N) (j : ℕ) (hj : j < 16) (e : n % 16 = j),
    (outsAt m c n hn).2.2 = fun y => acc (PP m c) (TT m c) (I ⟨n, hn⟩) j hj (y 0)
  | 0, hn, j, hj, e => by
    obtain rfl : j = 0 := by omega
    exact scr_first m c ⟨0, hn⟩ (Nat.zero_mod _)
  | n + 1, hn, j, hj, e => by
    by_cases h0 : (n + 1) % 16 = 0
    · obtain rfl : j = 0 := by omega
      have hJ : J ⟨n + 1, hn⟩ = ⟨0, hj⟩ := Fin.ext h0
      rw [scr_first' m c (n + 1) hn h0, hJ]
      rfl
    · obtain ⟨j', rfl⟩ : ∃ j', j = j' + 1 := ⟨j - 1, by omega⟩
      have hI : I ⟨n + 1, hn⟩ = I ⟨n, Nat.lt_of_succ_lt hn⟩ := Fin.ext (by show (n + 1) / 16 = n / 16; omega)
      have hJ : J ⟨n + 1, hn⟩ = ⟨j' + 1, hj⟩ := Fin.ext e
      rw [scr_step m c n hn h0, scr_inv c n (Nat.lt_of_succ_lt hn) j' (Nat.lt_of_succ_lt hj) (by omega), hI, hJ]
      rfl

/-! ## The two outputs' buffers -/

theorem out5_at (c : Dev nD) (t : Fin cfg0.N) :
    (outsAt m c t.val t.isLt).2.1 = fun y => colmin (PP m c) (TT m c) (I t) (at16 (J t) (y 2)) := by
  by_cases h0 : t.val % 16 = 0
  · have h15 : ¬t.val % 16 = 15 := by omega
    rw [outsAt_A m c t h0 h15, stA_out5]
    funext y; obtain ⟨cc, rfl⟩ : ∃ cc : Fin 1024, y = ix3 (0 : Fin 1) (0 : Fin 1) cc := ⟨y 2, out5_ix y⟩; exact pay6_at m c t cc
  · by_cases h15 : t.val % 16 = 15
    · rw [outsAt_C m c t h0 h15, stC_out5]
      funext y; obtain ⟨cc, rfl⟩ : ∃ cc : Fin 1024, y = ix3 (0 : Fin 1) (0 : Fin 1) cc := ⟨y 2, out5_ix y⟩; exact pay6_at m c t cc
    · rw [outsAt_B m c t h0 h15, stB_out5]
      funext y; obtain ⟨cc, rfl⟩ : ∃ cc : Fin 1024, y = ix3 (0 : Fin 1) (0 : Fin 1) cc := ⟨y 2, out5_ix y⟩; exact pay6_at m c t cc

theorem out4_at (c : Dev nD) (t : Fin cfg0.N) (h15 : t.val % 16 = 15) :
    (outsAt m c t.val t.isLt).1 = fun y => near1K (PP m c) (TT m c) (I t) (y 0) := by
  have h0 : ¬t.val % 16 = 0 := by omega
  have hs := scr_inv m c t.val t.isLt 15 (by decide) h15
  rw [outsAt_C m c t h0 h15] at hs ⊢
  rw [stC_scr] at hs
  rw [stC_out4]
  funext y
  obtain ⟨r, rfl⟩ : ∃ r : Fin 1024, y = ix2 r (0 : Fin 1) := ⟨y 0, col_ix y⟩
  refine (pay5_apply _ r).trans ?_
  unfold near1K
  exact congrArg (max · zero) (congrFun hs (ix2 r 0))

/-! ## From blocks to the two result arrays -/

/-- What the first result array ends holding: at row `n` the clamped running minimum of row `n % 1024` of the row of
    tiles `n / 1024`. -/
def G4 (c : Dev nD) : S16384x1.Idx → EReal := fun y =>
  near1K (PP m c) (TT m c) ⟨(y 0).val / 1024, by have h : (y 0).val < 16384 := (y 0).isLt; omega⟩ ⟨(y 0).val % 1024, Nat.mod_lt _ (by decide)⟩
/-- What the second ends holding: at (i, 0, n) the clamped minimum of column `n` inside the row of tiles `i`. -/
def G5 (c : Dev nD) : S16x1x16384.Idx → EReal := fun y => colmin (PP m c) (TT m c) (y 0) (y 2)

theorem flushed4_eq (c : Dev nD) (t : Fin cfg0.N) (hf : (cfg0.win 4).flush t = true) :
    (dats m 0 c).flushed 4 t = ((cfg0.win 4).blk t).view.read (Elt Ideal) (G4 m c) := by
  have h15 : t.val % 16 = 15 := (flush0_4 t).mp hf
  show (cfg0.win 4).cut (grid0.coords t) ((dats m 0 c).after 4 t) = _
  rw [after4, out4_at m c t h15]
  obtain ⟨-, -, -, -, -, -, -, -, e0, e1, -⟩ := idx_facts t
  funext y
  rw [View.read_apply]
  show near1K (PP m c) (TT m c) (I t) (y 0) = G4 m c (((cfg0.win 4).blk t).view.emb y)
  unfold G4
  have hy : (y 0).val < 1024 := (y 0).isLt
  have ht : t.val < 256 := lt_of_lt_of_eq t.isLt N_0
  have hv : ((((cfg0.win 4).blk t).view.emb y) 0).val = win0_4.index t (0 : Fin 2) * 1024 + 1 * (y 0).val := rfl
  congr 1
  · apply Fin.ext; show t.val / 16 = _ / 1024; rw [hv, e0]; omega
  · apply Fin.ext; show (y 0).val = _ % 1024; rw [hv, e0]; omega

theorem mem_blk4 (t : Fin cfg0.N) (i : S16384x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v9_0).slice (win0_4.rect t)).set ↔ _
  rw [View.set_slice_whole, Rect.mem_set_unit]
  exact Iff.rfl

theorem final4 (c : Dev nD) : (dats m 0 c).arrAt 4 cfg0.N = G4 m c :=
  (dats m 0 c).arrAt_eq_of_cover 4 (G4 m c) (flushed4_eq m c) fun i => by
    have hi : (i 0).val < 16384 := (i 0).isLt
    have hi1 : (i 1).val < 1 := (i 1).isLt
    have hN : cfg0.N = 256 := N_0
    let t : Fin cfg0.N := ⟨(i 0).val / 1024 * 16 + 15, by omega⟩
    have ht : t.val = (i 0).val / 1024 * 16 + 15 := rfl
    obtain ⟨-, -, -, -, -, -, -, -, e0, e1, -⟩ := idx_facts t
    refine ⟨t, (flush0_4 t).mpr (by rw [ht]; omega), ?_⟩
    rw [mem_blk4]
    intro a
    match a with
    | ⟨0, _⟩ => show win0_4.index t (0 : Fin 2) * 1024 ≤ (i 0).val ∧ (i 0).val < win0_4.index t (0 : Fin 2) * 1024 + 1024; rw [e0, ht]; omega
    | ⟨1, _⟩ => show win0_4.index t (1 : Fin 2) * 1 ≤ (i 1).val ∧ (i 1).val < win0_4.index t (1 : Fin 2) * 1 + 1; rw [e1]; omega

theorem flushed5_eq (c : Dev nD) (t : Fin cfg0.N) (hf : (cfg0.win 5).flush t = true) :
    (dats m 0 c).flushed 5 t = ((cfg0.win 5).blk t).view.read (Elt Ideal) (G5 m c) := by
  show (cfg0.win 5).cut (grid0.coords t) ((dats m 0 c).after 5 t) = _
  rw [after5, out5_at m c t]
  obtain ⟨-, -, -, -, -, -, -, -, -, -, e0, e1, e2⟩ := idx_facts t
  funext y
  rw [View.read_apply]
  show colmin (PP m c) (TT m c) (I t) (at16 (J t) (y 2)) = G5 m c (((cfg0.win 5).blk t).view.emb y)
  unfold G5
  have hy : (y 2).val < 1024 := (y 2).isLt
  have hy0 : (y 0).val < 1 := (y 0).isLt
  have ht : t.val < 256 := lt_of_lt_of_eq t.isLt N_0
  have hv0 : ((((cfg0.win 5).blk t).view.emb y) 0).val = win0_5.index t (0 : Fin 3) * 1 + 1 * (y 0).val := rfl
  have hv2 : ((((cfg0.win 5).blk t).view.emb y) 2).val = win0_5.index t (2 : Fin 3) * 1024 + 1 * (y 2).val := rfl
  have g0 : I t = (((cfg0.win 5).blk t).view.emb y) 0 := by
    apply Fin.ext; show t.val / 16 = _; rw [hv0, e0]; omega
  have g2 : at16 (J t) (y 2) = (((cfg0.win 5).blk t).view.emb y) 2 := by
    apply Fin.ext; show t.val % 16 * 1024 + (y 2).val = _; rw [hv2, e2]; omega
  rw [g0, g2]

theorem mem_blk5 (t : Fin cfg0.N) (i : S16x1x16384.Idx) :
    i ∈ ((cfg0.win 5).blk t).view.set ↔ ∀ a : Fin 3, win0_5.index t a * S1x1x1024.size a ≤ (i a).val ∧ (i a).val < win0_5.index t a * S1x1x1024.size a + S1x1x1024.size a := by
  show i ∈ ((View.whole main_v9_1).slice (win0_5.rect t)).set ↔ _
  rw [View.set_slice_whole, Rect.mem_set_unit]
  exact Iff.rfl

theorem final5 (c : Dev nD) : (dats m 0 c).arrAt 5 cfg0.N = G5 m c :=
  (dats m 0 c).arrAt_eq_of_cover 5 (G5 m c) (flushed5_eq m c) fun i => by
    have hi0 : (i 0).val < 16 := (i 0).isLt
    have hi1 : (i 1).val < 1 := (i 1).isLt
    have hi2 : (i 2).val < 16384 := (i 2).isLt
    have hN : cfg0.N = 256 := N_0
    let t : Fin cfg0.N := ⟨(i 0).val * 16 + (i 2).val / 1024, by omega⟩
    have ht : t.val = (i 0).val * 16 + (i 2).val / 1024 := rfl
    obtain ⟨-, -, -, -, -, -, -, -, -, -, e0, e1, e2⟩ := idx_facts t
    refine ⟨t, flush0_5 t, ?_⟩
    rw [mem_blk5]
    intro a
    match a with
    | ⟨0, _⟩ => show win0_5.index t (0 : Fin 3) * 1 ≤ (i 0).val ∧ (i 0).val < win0_5.index t (0 : Fin 3) * 1 + 1; rw [e0, ht]; omega
    | ⟨1, _⟩ => show win0_5.index t (1 : Fin 3) * 1 ≤ (i 1).val ∧ (i 1).val < win0_5.index t (1 : Fin 3) * 1 + 1; rw [e1]; omega
    | ⟨2, _⟩ => show win0_5.index t (2 : Fin 3) * 1024 ≤ (i 2).val ∧ (i 2).val < win0_5.index t (2 : Fin 3) * 1024 + 1024; rw [e2, ht]; omega

/-! ## The result -/

/-- The lines after the region, over the two result arrays, give the loss. -/
theorem kernel_result (c : Dev nD) :
    Pipeline.afterTail₀ cfgs (dats m) 0 (V0 m) [hostOps1] c main_v17 = Chamfer.result (PP m c) (TT m c) := by
  rw [afterTail_eq m (dats m) c, final4, final5]
  refine tailOf_eq _ _ (PP m c) (TT m c) (fun i r => ?_) (fun i n => rfl)
  unfold G4
  have hi : i.val < 16 := i.isLt
  have hr : r.val < 1024 := r.isLt
  congr 1
  · apply Fin.ext; show (i.val * 1024 + r.val) / 1024 = i.val; omega
  · apply Fin.ext; show (i.val * 1024 + r.val) % 1024 = r.val; omega

/-- The idealized kernel's run, read: the result at the loss of the two clouds, the arguments unchanged. -/
theorem run : θ_run defs (onTc (τ := τ) (main (F := Ideal))) ⟨m, fun _ => 0, ρ⟩ fun r => ∀ c : Dev nD,
      r.2.mem ((c.tc : Thread nD τ).loc main_v17) = Chamfer.result (PP m c) (TT m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v17 (Pipeline.mem_restRefs_of main_v17 (by decide) (by decide))).trans (kernel_result m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Body

end
-- ==== Proof.RefValue.lean ====
/-
  The reference program read as the direct arrangement of the chamfer loss.  Entry (n, m) of its table is the clamped
  squared distance of point n of the first cloud and point m of the second; its two minimum-reductions from +∞ are
  the minimum of that table along each row and along each column; and its last lines are the two means added.
-/
import proofs.«112530_j80676665688371_2_alg».proof.Proof.Gen.ReferenceIdeal.Read
import proofs.«112530_j80676665688371_2_alg».proof.Proof.Chamfer
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- Entry (n, m) of the program's table is the clamped squared distance of the pair. -/
theorem dist_eq (x0 x1 : (⟨S1x16384x3, .f32⟩ : BufTy).Contents (Elt Ideal)) (n m : Fin 16384) :
    val_main_v16 (F := Ideal) x0 x1 (ix2 n m) = Chamfer.dist (Chamfer.cloud x0) (Chamfer.cloud x1) n m := by
  have e9 : idx_main_v9 (ix2 n m) = ix2 n (0 : Fin 1) :=
    funext fun a => Fin.ext (by match a with | ⟨0, _⟩ => rfl | ⟨1, _⟩ => rfl)
  have e7 : idx_main_v7 (ix2 n (0 : Fin 1)) = ix1 n :=
    funext fun a => Fin.ext (by match a with | ⟨0, _⟩ => rfl)
  have e3 : ∀ k : Fin 3, idx_main_v3 (ix1 n) k = ix2 n k := fun k =>
    funext fun a => Fin.ext (by match a with | ⟨0, _⟩ => rfl | ⟨1, _⟩ => rfl)
  have e10 : idx_main_v10 (ix2 n m) = ix2 (0 : Fin 1) m :=
    funext fun a => Fin.ext (by match a with | ⟨0, _⟩ => rfl | ⟨1, _⟩ => rfl)
  have e8 : idx_main_v8 (ix2 (0 : Fin 1) m) = ix1 m :=
    funext fun a => Fin.ext (by match a with | ⟨0, _⟩ => rfl)
  have e5 : ∀ k : Fin 3, idx_main_v5 (ix1 m) k = ix2 m k := fun k =>
    funext fun a => Fin.ext (by match a with | ⟨0, _⟩ => rfl | ⟨1, _⟩ => rfl)
  have el : ∀ k : Fin 3, lidx_main_v6 (ix2 n m) k = ix2 n k := fun k =>
    funext fun a => Fin.ext (by match a with | ⟨0, _⟩ => rfl | ⟨1, _⟩ => rfl)
  have er : ∀ k : Fin 3, ridx_main_v6 (ix2 n m) k = ix2 m k := fun k =>
    funext fun a => Fin.ext (by match a with | ⟨0, _⟩ => rfl | ⟨1, _⟩ => rfl)
  rw [val_main_v16_apply, val_main_v14_apply, val_main_v11_apply, val_main_v9_apply, e9, val_main_v7_apply, e7,
    val_main_v3_apply, val_main_v10_apply, e10, val_main_v8_apply, e8, val_main_v5_apply, val_main_v13_apply,
    val_main_v12_apply, val_main_v6_apply, val_main_v15_apply, val_main_cst_apply, val_main_cst_0_apply,
    val_main_cst_1_apply, val_main_cst_2_apply]
  simp only [e3, e5, el, er, val_main_v2_apply, val_main_v4_apply]
  simp only [Ideal.maximumf_def, Ideal.subf_def, Ideal.addf_def, Ideal.mulf_def, Ideal.ofBits_def]
  rfl

/-- The reduced index `n` with column `k` put back is (n, k). -/
theorem lift_col (h : S16384x16384.Reduces [1] S16384) (n : Fin 16384) (k : Fin (S16384x16384.size 1)) :
    h.lift (ix1 n) k = ix2 n (⟨k.val, k.isLt⟩ : Fin 16384) := by
  funext c; apply Fin.ext
  fin_cases c <;> rfl

/-- The reduced index `m` with row `k` put back is (k, m). -/
theorem lift_row (h : S16384x16384.Reduces [0] S16384) (m : Fin 16384) (k : Fin (S16384x16384.size 0)) :
    h.lift (ix1 m) k = ix2 (⟨k.val, k.isLt⟩ : Fin 16384) m := by
  funext c; apply Fin.ext
  fin_cases c <;> rfl

/-- The minimum along each row of the table of clamped squared distances. -/
theorem near1_eq (x0 x1 : (⟨S1x16384x3, .f32⟩ : BufTy).Contents (Elt Ideal)) :
    val_main_v17 (F := Ideal) x0 x1 = fun j => Chamfer.near1 (Chamfer.cloud x0) (Chamfer.cloud x1) (j 0) := by
  funext j
  obtain ⟨n, rfl⟩ : ∃ n, j = ix1 n := ⟨j 0, eq_ix1 j⟩
  have h : S16384x16384.Reduces [1] S16384 := by decide
  unfold val_main_v17
  rw [Host.reduce_eq_fold_single FloatOps.minimumf _ _ reducesTo_S16384x16384_S16384_d1 h h_S_]
  have hf : (val_main_v16 (F := Ideal) x0 x1 ∘ h.lift (ix1 n))
      = fun m : Fin 16384 => Chamfer.dist (Chamfer.cloud x0) (Chamfer.cloud x1) n m :=
    funext fun k => (congrArg (val_main_v16 (F := Ideal) x0 x1) (lift_col h n k)).trans (dist_eq x0 x1 n _)
  rw [hf]
  rfl

/-- The minimum along each column of the table of clamped squared distances. -/
theorem near2_eq (x0 x1 : (⟨S1x16384x3, .f32⟩ : BufTy).Contents (Elt Ideal)) :
    val_main_v18 (F := Ideal) x0 x1 = fun j => Chamfer.near2 (Chamfer.cloud x0) (Chamfer.cloud x1) (j 0) := by
  funext j
  obtain ⟨m, rfl⟩ : ∃ m, j = ix1 m := ⟨j 0, eq_ix1 j⟩
  have h : S16384x16384.Reduces [0] S16384 := by decide
  unfold val_main_v18
  rw [Host.reduce_eq_fold_single FloatOps.minimumf _ _ reducesTo_S16384x16384_S16384_d0 h h_S_]
  have hf : (val_main_v16 (F := Ideal) x0 x1 ∘ h.lift (ix1 m))
      = fun n : Fin 16384 => Chamfer.dist (Chamfer.cloud x0) (Chamfer.cloud x1) n m :=
    funext fun k => (congrArg (val_main_v16 (F := Ideal) x0 x1) (lift_row h m k)).trans (dist_eq x0 x1 _ m)
  rw [hf]
  rfl

/-- The last lines of the program are the two means added. -/
theorem tail_eq (x0 x1 : (⟨S1x16384x3, .f32⟩ : BufTy).Contents (Elt Ideal)) :
    val_main_v23 (F := Ideal) x0 x1 = Chamfer.tail (val_main_v17 (F := Ideal) x0 x1) (val_main_v18 (F := Ideal) x0 x1) := rfl

/-- The reference program computes the loss of the two clouds its arguments hold. -/
theorem result_eq (x0 x1 : (⟨S1x16384x3, .f32⟩ : BufTy).Contents (Elt Ideal)) :
    val_main_v23 (F := Ideal) x0 x1 = Chamfer.result (Chamfer.cloud x0) (Chamfer.cloud x1) := by
  rw [tail_eq, near1_eq, near2_eq]
  rfl

end Cert.ReferenceIdeal.RefValue

end
-- ==== Proof.lean ====
/-
  The chamfer loss of two clouds of 16384 points in three coordinates: a kernel that sweeps the table of squared
  distances tile by tile (16 × 16 tiles of 1024 × 1024) against the direct formula.

  Both programs compute, for every pair, |p|² + |t|² - 2·(p·t); the kernel carries the factor 2 into the inner product's
  left factor, which over the extended reals is the same number because multiplication by the positive real 2
  distributes over every sum.  The direct formula clamps each distance at zero and then takes the minimum along each row
  and each column of the whole table; the kernel takes minima first — a row's minimum tile by tile along a row of tiles
  as a running minimum kept between grid points, a column's inside each tile and then across the 16 rows of tiles — and
  clamps the reduced values; the clamp commutes with every finite minimum.  Both end with the same two means.

  Each kernel program's frame is its run over the grid with the running minimum carried from point to point; the
  reference's frame is its straight-line run.  Nothing was rewritten by idealization, so that conjunct is trivial.
-/
import proofs.«112530_j80676665688371_2_alg».proof.Defs
import proofs.«112530_j80676665688371_2_alg».proof.Proof.Gen.Kernel
import proofs.«112530_j80676665688371_2_alg».proof.Proof.Gen.KernelIdeal
import proofs.«112530_j80676665688371_2_alg».proof.Proof.Gen.ReferenceIdeal
import proofs.«112530_j80676665688371_2_alg».proof.Proof.Gen.ReferenceIdeal.Run
import proofs.«112530_j80676665688371_2_alg».proof.Proof.Gen.Pre_finite_inputs
import proofs.«112530_j80676665688371_2_alg».proof.Proof.Kernel.Obligation
import proofs.«112530_j80676665688371_2_alg».proof.Proof.KernelIdeal.Value
import proofs.«112530_j80676665688371_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the two clouds both idealized programs end at the clouds' chamfer loss. -/
theorem algebraic : Cert.algebraic_KernelIdeal_ReferenceIdeal := by
  intro m ρ m' ρ' _ hagree
  refine ⟨fun c => Chamfer.result (Cert.KernelIdeal.Body.PP m c) (Cert.KernelIdeal.Body.TT m c), Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
